-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2x500000 : Shape := ⟨2, ![2, 500000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64 .f32) (main_arg7 : FVec F S128x64 .f32) (main_arg8 : FVec F S64 .f32) (main_arg9 : FVec F S64x1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S2x500000 32) (main_arg3 : FVec F S128x64 .f32) (main_arg4 : FVec F S64 .f32) (main_arg5 : FVec F S64x64 .f32) (main_arg6 : FVec F S64 .f32) (main_arg7 : FVec F S128x64 .f32) (main_arg8 : FVec F S64 .f32) (main_arg9 : FVec F S64x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S2x500000 : Shape := ⟨2, ![2, 500000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1700000x64 : Shape := ⟨2, ![1700000, 64]⟩
abbrev S1x64 : Shape := ⟨2, ![1, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S1x1 : Shape := ⟨2, ![1, 1]⟩

abbrev nBuf : Space → Nat
  | .hbm => 115
  | .vmem => 25
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x500000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S_, .f32⟩
  | .hbm, ⟨29, _⟩ => ⟨S1700000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .i1⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000, .f32⟩
  | .hbm, ⟨38, _⟩ => ⟨S_, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x64, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .f32⟩
  | .hbm, ⟨53, _⟩ => ⟨S_, .f32⟩
  | .hbm, ⟨54, _⟩ => ⟨S100000x64, .f32⟩
  | .hbm, ⟨55, _⟩ => ⟨S1700000x1, .i32⟩
  | .hbm, ⟨56, _⟩ => ⟨S100000x64, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S100000x1, .f32⟩
  | .hbm, ⟨67, _⟩ => ⟨S100000x64, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x64, .f32⟩
  | .hbm, ⟨77, _⟩ => ⟨S_, .f32⟩
  | .hbm, ⟨78, _⟩ => ⟨S100000x64, .f32⟩
  | .hbm, ⟨79, _⟩ => ⟨S1700000x1, .i32⟩
  | .hbm, ⟨80, _⟩ => ⟨S100000x64, .f32⟩
  | .hbm, ⟨81, _⟩ => ⟨S100000x1, .f32⟩
  | .hbm, ⟨82, _⟩ => ⟨S100000x64, .f32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S1x500000, .i32⟩
  | .hbm, ⟨88, _⟩ => ⟨S500000, .i32⟩
  | .hbm, ⟨89, _⟩ => ⟨S_, .i32⟩
  | .hbm, ⟨90, _⟩ => ⟨S500000, .i32⟩
  | .hbm, ⟨91, _⟩ => ⟨S500000, .i1⟩
  | .hbm, ⟨92, _⟩ => ⟨S_, .i32⟩
  | .hbm, ⟨93, _⟩ => ⟨S500000, .i32⟩
  | .hbm, ⟨94, _⟩ => ⟨S500000, .i32⟩
  | .hbm, ⟨95, _⟩ => ⟨S500000, .i32⟩
  | .hbm, ⟨96, _⟩ => ⟨S500000x1, .i32⟩
  | .hbm, ⟨97, _⟩ => ⟨S500000x64, .f32⟩
  | .hbm, ⟨98, _⟩ => ⟨S1x500000, .i32⟩
  | .hbm, ⟨99, _⟩ => ⟨S500000, .i32⟩
  | .hbm, ⟨100, _⟩ => ⟨S_, .i32⟩
  | .hbm, ⟨101, _⟩ => ⟨S500000, .i32⟩
  | .hbm, ⟨102, _⟩ => ⟨S500000, .i1⟩
  | .hbm, ⟨103, _⟩ => ⟨S_, .i32⟩
  | .hbm, ⟨104, _⟩ => ⟨S500000, .i32⟩
  | .hbm, ⟨105, _⟩ => ⟨S500000, .i32⟩
  | .hbm, ⟨106, _⟩ => ⟨S500000, .i32⟩
  | .hbm, ⟨107, _⟩ => ⟨S500000x1, .i32⟩
  | .hbm, ⟨108, _⟩ => ⟨S500000x64, .f32⟩
  | .hbm, ⟨109, _⟩ => ⟨S64x64, .f32⟩
  | .hbm, ⟨110, _⟩ => ⟨S64x64, .f32⟩
  | .hbm, ⟨111, _⟩ => ⟨S1x64, .f32⟩
  | .hbm, ⟨112, _⟩ => ⟨S1x1, .f32⟩
  | .hbm, ⟨113, _⟩ => ⟨S500000x1, .f32⟩
  | .hbm, ⟨114, _⟩ => ⟨S500000, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S64x64, .f32⟩
  | .local _ .vmem, ⟨10, _⟩ => ⟨S5000x1, .f32⟩
  | .local _ .vmem, ⟨11, _⟩ => ⟨S5000x1, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S64x64, .f32⟩
  | .local _ .vmem, ⟨20, _⟩ => ⟨S1x64, .f32⟩
  | .local _ .vmem, ⟨21, _⟩ => ⟨S64x1, .f32⟩
  | .local _ .vmem, ⟨22, _⟩ => ⟨S1x1, .f32⟩
  | .local _ .vmem, ⟨23, _⟩ => ⟨S5000x1, .f32⟩
  | .local _ .vmem, ⟨24, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call1_cst : Ref sig .tc := ⟨.hbm, 63, rfl⟩
abbrev main_call1_v0 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_8 : Ref sig .tc := ⟨.hbm, 68, rfl⟩
abbrev main_v43 : Ref sig .tc := ⟨.hbm, 69, rfl⟩
abbrev main_v44 : Ref sig .tc := ⟨.hbm, 70, rfl⟩
abbrev main_c_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_11 : Ref sig .tc := ⟨.hbm, 89, rfl⟩
abbrev main_v61 : Ref sig .tc := ⟨.hbm, 90, rfl⟩
abbrev main_v62 : Ref sig .tc := ⟨.hbm, 91, rfl⟩
abbrev main_c_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_13 : Ref sig .tc := ⟨.hbm, 100, rfl⟩
abbrev main_v70 : Ref sig .tc := ⟨.hbm, 101, rfl⟩
abbrev main_v71 : Ref sig .tc := ⟨.hbm, 102, rfl⟩
abbrev main_c_14 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg7_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  slices_S128x64_S64x64_0_0 : S128x64.Slices ![0, 0] S64x64
  slices_S128x64_S64x64_64_0 : S128x64.Slices ![64, 0] S64x64
  shapeCasts_S64_S1x64 : S64.ShapeCasts S1x64
  shapeCasts_S1_S1x1 : S1.ShapeCasts S1x1
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S500000x1_S500000 : S500000x1.ShapeCasts S500000
  scatter_S100000_S1700000x1_S1700000_n_0_0_1_wf : ScatterDims.WF S100000 S1700000x1 S1700000 [] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  gather_S100000x64_S500000x1_S500000x64_1_0_n_n_0_1_164_wf : GatherDims.WF S100000x64 S500000x1 S500000x64 [1] [0] [] [0] [] 1 ![1, 64]
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S500000x64.size a
  hwx2_0 : ∀ i : grid2.Coords, EltTy.bits .f32 = 32 ∨ (Rect.block (s := S500000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S500000x64.size a
  hwx2_1 : ∀ i : grid2.Coords, EltTy.bits .f32 = 32 ∨ (Rect.block (s := S500000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x1.size a ≤ S64x1.size a
  hwx2_5 : ∀ i : grid2.Coords, EltTy.bits .f32 = 32 ∨ (Rect.block (s := S64x1) S64x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x1.size a ≤ S500000x1.size a
  hwx2_7 : ∀ i : grid2.Coords, EltTy.bits .f32 = 32 ∨ (Rect.block (s := S500000x1) S5000x1.size (cc2_transform_7 i) (hinb2_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v67) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v77) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v78) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v79) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S64x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v80) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v81) S5000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2x500000 : Shape := ⟨2, ![2, 500000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S500000x128 : Shape := ⟨2, ![500000, 128]⟩
abbrev S1x1 : Shape := ⟨2, ![1, 1]⟩

abbrev nBuf : Space → Nat
  | .hbm => 166
  | .vmem => 0
  | .smem => 0
  | _ => 0

abbrev hbmTy0_0 (i : Nat) : BufTy := match i % 128 with
  | 0 => ⟨S100000x128, .f32⟩
  | 1 => ⟨S2x1600000, .i32⟩
  | 2 => ⟨S2x500000, .i32⟩
  | 3 => ⟨S128x64, .f32⟩
  | 4 => ⟨S64, .f32⟩
  | 5 => ⟨S64x64, .f32⟩
  | 6 => ⟨S64, .f32⟩
  | 7 => ⟨S128x64, .f32⟩
  | 8 => ⟨S64, .f32⟩
  | 9 => ⟨S64x1, .f32⟩
  | 10 => ⟨S1, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S100000, .f32⟩
  | 20 => ⟨S_, .i32⟩
  | 21 => ⟨S1700000, .i32⟩
  | 22 => ⟨S1700000, .i1⟩
  | 23 => ⟨S_, .i32⟩
  | 24 => ⟨S1700000, .i32⟩
  | 25 => ⟨S1700000, .i32⟩
  | 26 => ⟨S1700000, .i32⟩
  | 27 => ⟨S1700000x1, .i32⟩
  | 28 => ⟨S_, .f32⟩
  | 29 => ⟨S1700000, .f32⟩
  | 30 => ⟨S100000, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .f32⟩
  | 37 => ⟨S100000, .f32⟩
  | 38 => ⟨S_, .f32⟩
  | 39 => ⟨S_, .f32⟩
  | 40 => ⟨S100000, .f32⟩
  | 41 => ⟨S100000, .f32⟩
  | 42 => ⟨S100000x64, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000, .f32⟩
  | 61 => ⟨S1700000, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x64, .f32⟩
  | 71 => ⟨S1700000x1, .f32⟩
  | 72 => ⟨S1700000x64, .f32⟩
  | 73 => ⟨S1700000x64, .f32⟩
  | 74 => ⟨S_, .f32⟩
  | 75 => ⟨S100000x64, .f32⟩
  | 76 => ⟨S1700000x1, .i32⟩
  | 77 => ⟨S100000x64, .f32⟩
  | 78 => ⟨S1x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S100000x64, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S1700000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x64, .f32⟩
  | 113 => ⟨S1700000x1, .f32⟩
  | 114 => ⟨S1700000x64, .f32⟩
  | 115 => ⟨S1700000x64, .f32⟩
  | 116 => ⟨S_, .f32⟩
  | 117 => ⟨S100000x64, .f32⟩
  | 118 => ⟨S1700000x1, .i32⟩
  | 119 => ⟨S100000x64, .f32⟩
  | 120 => ⟨S1x64, .f32⟩
  | 121 => ⟨S100000x64, .f32⟩
  | 122 => ⟨S100000x64, .f32⟩
  | 123 => ⟨S1x500000, .i32⟩
  | 124 => ⟨S500000, .i32⟩
  | 125 => ⟨S_, .i32⟩
  | 126 => ⟨S500000, .i32⟩
  | 127 => ⟨S500000, .i1⟩
  | _ => ⟨S100000x128, .f32⟩

abbrev hbmTy0_1 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000x64, .f32⟩
  | 6 => ⟨S1x500000, .i32⟩
  | 7 => ⟨S500000, .i32⟩
  | 8 => ⟨S_, .i32⟩
  | 9 => ⟨S500000, .i32⟩
  | 10 => ⟨S500000, .i1⟩
  | 11 => ⟨S_, .i32⟩
  | 12 => ⟨S500000, .i32⟩
  | 13 => ⟨S500000, .i32⟩
  | 14 => ⟨S500000, .i32⟩
  | 15 => ⟨S500000x1, .i32⟩
  | 16 => ⟨S500000x64, .f32⟩
  | 17 => ⟨S500000x128, .f32⟩
  | 18 => ⟨S500000x64, .f32⟩
  | 19 => ⟨S1x64, .f32⟩
  | 20 => ⟨S500000x64, .f32⟩
  | 21 => ⟨S500000x64, .f32⟩
  | 22 => ⟨S_, .f32⟩
  | 23 => ⟨S500000x64, .f32⟩
  | 24 => ⟨S500000x64, .f32⟩
  | 25 => ⟨S500000x1, .f32⟩
  | 26 => ⟨S1x1, .f32⟩
  | 27 => ⟨S500000x1, .f32⟩
  | 28 => ⟨S500000x1, .f32⟩
  | 29 => ⟨S500000x1, .f32⟩
  | 30 => ⟨S500000x1, .f32⟩
  | 31 => ⟨S_, .f32⟩
  | 32 => ⟨S500000x1, .f32⟩
  | 33 => ⟨S500000x1, .f32⟩
  | 34 => ⟨S_, .f32⟩
  | 35 => ⟨S500000x1, .f32⟩
  | 36 => ⟨S500000x1, .f32⟩
  | 37 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_c_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_c_10 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call1_cst : Ref sig .tc := ⟨.hbm, 81, rfl⟩
abbrev main_call1_v0 : Ref sig .tc := ⟨.hbm, 82, rfl⟩
abbrev main_v54 : Ref sig .tc := ⟨.hbm, 83, rfl⟩
abbrev main_v55 : Ref sig .tc := ⟨.hbm, 84, rfl⟩
abbrev main_c_12 : Ref sig .tc := ⟨.hbm, 85, rfl⟩
abbrev main_v56 : Ref sig .tc := ⟨.hbm, 86, rfl⟩
abbrev main_v57 : Ref sig .tc := ⟨.hbm, 87, rfl⟩
abbrev main_c_13 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_14 : Ref sig .tc := ⟨.hbm, 94, rfl⟩
abbrev main_v63 : Ref sig .tc := ⟨.hbm, 95, rfl⟩
abbrev main_v64 : Ref sig .tc := ⟨.hbm, 96, rfl⟩
abbrev main_c_15 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_16 : Ref sig .tc := ⟨.hbm, 104, rfl⟩
abbrev main_v71 : Ref sig .tc := ⟨.hbm, 105, rfl⟩
abbrev main_v72 : Ref sig .tc := ⟨.hbm, 106, rfl⟩
abbrev main_c_17 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_19 : Ref sig .tc := ⟨.hbm, 125, rfl⟩
abbrev main_v89 : Ref sig .tc := ⟨.hbm, 126, rfl⟩
abbrev main_v90 : Ref sig .tc := ⟨.hbm, 127, rfl⟩
abbrev main_c_20 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_c_21 : Ref sig .tc := ⟨.hbm, 136, rfl⟩
abbrev main_v98 : Ref sig .tc := ⟨.hbm, 137, rfl⟩
abbrev main_v99 : Ref sig .tc := ⟨.hbm, 138, rfl⟩
abbrev main_c_22 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_call2_cst : Ref sig .tc := ⟨.hbm, 150, rfl⟩
abbrev main_call2_v0 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_23 : Ref sig .tc := ⟨.hbm, 159, rfl⟩
abbrev main_v117 : Ref sig .tc := ⟨.hbm, 160, rfl⟩
abbrev main_v118 : Ref sig .tc := ⟨.hbm, 161, rfl⟩
abbrev main_cst_24 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x64_S500000x64_S500000x128_d1 : Shape.Concatenates [S500000x64, S500000x64] S500000x128 1
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  shapeCasts_S500000x1_S500000 : S500000x1.ShapeCasts S500000
  scatter_S100000_S1700000x1_S1700000_n_0_0_1_wf : ScatterDims.WF S100000 S1700000x1 S1700000 [] [0] [0] 1
  dot_S100000x128_S128x64_S100000x64_1_0_0_1_n_n_wf : DotDims.WF S100000x128 S128x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  gather_S100000x64_S500000x1_S500000x64_1_0_n_n_0_1_164_wf : GatherDims.WF S100000x64 S500000x1 S500000x64 [1] [0] [] [0] [] 1 ![1, 64]
  dot_S500000x128_S128x64_S500000x64_1_0_0_1_n_n_wf : DotDims.WF S500000x128 S128x64 S500000x64 [1] [0] [0] [1] [] []
  dot_S500000x64_S64x1_S500000x1_1_0_0_1_n_n_wf : DotDims.WF S500000x64 S64x1 S500000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.KernelRun.lean ====
/-
  The idealized kernel program run from any memory: every weakly fair execution terminates without a fault, the
  eleven argument arrays end as they were launched, and the result array (the 500000 link scores) ends holding
  what the last boundary of the program's fold holds there: the contents the TensorCore's buffers have after the
  final reshape, computed boundary by boundary from the launch memory through the host stretches and the three
  kernel regions.  Every later module reads that one value back as a function of the arguments.
-/
import proofs.«148566_j28887950033462_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array named: it ends at the last boundary's contents, the arguments as launched. -/
theorem run_out : θ_run defs (onTc (τ := τ) (main (F := F))) ⟨m, fun _ => 0, ρ⟩ (fun r => ∀ c : Dev nD,
      r.2.mem ((c.tc : Thread nD τ).loc main_v82) = W11 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v82 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.Out

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibProduct.lean ====
/-
  A matrix product as ONE function of its two factors, on the extended reals, for any extents.

  * `product x w` is the `[a, k] × [k, b]` product: entry `(i, j)` is the sum over the contracted coordinate `e` of
    `x (i, e) · w (e, j)`; `square h` multiplies every entry by itself.
  * `matmul_rounded_eq`: the matrix unit's product into a zero accumulator of two `f32` factors each rounded to a shorter
    float format on the way in (left factor's last axis against the right factor's first, no batch axis) is `product` of the
    unrounded factors at the ideal instance, where rounding is the identity.
  * `dotGeneral_eq`: the host's `dot_general` with the same dimension numbers is `product`.
  * `product_congr`, `product_square_congr`: two products (the second: of the left factors squared) agree at two indices
    when the rows of the left factors and the columns of the right factors they read agree — the step that turns "the block a
    grid point computes from a row block" into "the same rows of the whole product".

  Only regrouping of a finite sum is used; no finiteness of the entries is needed.
-/
import Idealize.ShloMosaic.Lib.ValueIdx
import Idealize.ShloMosaic.Lib.Pipeline.Value
import Idealize.ShloMosaic.PureOps.Ideal.Laws
import proofs.«148566_j28887950033462_2_alg».proof.Proof.LibRowMax

noncomputable section

namespace Cert.LibProduct

open Idealize.ShloMosaic Idealize.ShloMosaic.ValueIdx
variable {a k b : ℕ}

/-- The product of an `[a, k]` matrix and a `[k, b]` matrix over the extended reals. -/
def product (x : (⟨2, ![a, k]⟩ : Shape).Idx → EReal) (w : (⟨2, ![k, b]⟩ : Shape).Idx → EReal) :
    (⟨2, ![a, b]⟩ : Shape).Idx → EReal :=
  fun i => ∑ e : Fin k, x (ix2 (i 0) e) * w (ix2 e (i 1))

theorem product_apply (x : (⟨2, ![a, k]⟩ : Shape).Idx → EReal) (w : (⟨2, ![k, b]⟩ : Shape).Idx → EReal) (i : Fin a) (j : Fin b) :
    product x w (ix2 i j) = ∑ e : Fin k, x (ix2 i e) * w (ix2 e j) := rfl

/-- Every entry multiplied by itself. -/
def square {s : Shape} (h : s.Idx → EReal) : s.Idx → EReal := fun i => h i * h i

/-- The matrix unit's product of two factors rounded to a shorter format, into a zero accumulator, is the product. -/
theorem matmul_rounded_eq {φ₁ φ₂ : FTy} (wf : DotDims.WF ⟨2, ![a, k]⟩ ⟨2, ![k, b]⟩ ⟨2, ![a, b]⟩ [1] [0] [0] [1] [] [])
    (prec : Option ContractPrecision) (x : FVec Ideal ⟨2, ![a, k]⟩ .f32) (w : FVec Ideal ⟨2, ![k, b]⟩ .f32)
    (h₁ : φ₁.bits < FTy.f32.bits) (h₂ : φ₂.bits < FTy.f32.bits) :
    FloatOps.matmul (Cert.LibRowMax.plainDims a k b wf) prec (truncf φ₁ x h₁) (truncf φ₂ w h₂)
        (constant ⟨2, ![a, b]⟩ .f32 0x00000000#32)
      = product x w := by
  funext j
  obtain ⟨p, q, rfl⟩ : ∃ (p : Fin a) (q : Fin b), j = ix2 p q := ⟨j 0, j 1, eq_ix2 j⟩
  exact Cert.LibRowMax.matmul_plain_apply wf prec (truncf φ₁ x h₁) (truncf φ₂ w h₂) p q

/-- The host's product of two factors is the product. -/
theorem dotGeneral_eq (wf : DotDims.WF ⟨2, ![a, k]⟩ ⟨2, ![k, b]⟩ ⟨2, ![a, b]⟩ [1] [0] [0] [1] [] [])
    (prec : Option ContractPrecision) (sched : HostSchedule) (x : FVec Ideal ⟨2, ![a, k]⟩ .f32) (w : FVec Ideal ⟨2, ![k, b]⟩ .f32) :
    FloatOps.dotGeneral (Cert.LibRowMax.plainDims a k b wf) prec sched x w = product x w := by
  funext j
  obtain ⟨p, q, rfl⟩ : ∃ (p : Fin a) (q : Fin b), j = ix2 p q := ⟨j 0, j 1, eq_ix2 j⟩
  exact Cert.LibRowMax.dotGeneral_plain_apply wf prec sched x w p q

/-! ## Two products agree at two indices when the rows and the columns they read agree -/

theorem product_congr {a k b a' : ℕ} (x : (⟨2, ![a, k]⟩ : Shape).Idx → EReal) (w : (⟨2, ![k, b]⟩ : Shape).Idx → EReal)
    (X : (⟨2, ![a', k]⟩ : Shape).Idx → EReal) (W : (⟨2, ![k, b]⟩ : Shape).Idx → EReal)
    (j : (⟨2, ![a, b]⟩ : Shape).Idx) (i : (⟨2, ![a', b]⟩ : Shape).Idx)
    (hx : ∀ e : Fin k, x (ix2 (j 0) e) = X (ix2 (i 0) e)) (hw : ∀ e : Fin k, w (ix2 e (j 1)) = W (ix2 e (i 1))) :
    product x w j = product X W i :=
  Finset.sum_congr rfl fun e _ => by rw [hx e, hw e]

theorem product_square_congr {a k b a' : ℕ} (x : (⟨2, ![a, k]⟩ : Shape).Idx → EReal) (w : (⟨2, ![k, b]⟩ : Shape).Idx → EReal)
    (X : (⟨2, ![a', k]⟩ : Shape).Idx → EReal) (W : (⟨2, ![k, b]⟩ : Shape).Idx → EReal)
    (j : (⟨2, ![a, b]⟩ : Shape).Idx) (i : (⟨2, ![a', b]⟩ : Shape).Idx)
    (hx : ∀ e : Fin k, x (ix2 (j 0) e) = X (ix2 (i 0) e)) (hw : ∀ e : Fin k, w (ix2 e (j 1)) = W (ix2 e (i 1))) :
    product (square x) w j = product (square X) W i :=
  Finset.sum_congr rfl fun e _ => by
    show x (ix2 (j 0) e) * x (ix2 (j 0) e) * w (ix2 e (j 1)) = X (ix2 (i 0) e) * X (ix2 (i 0) e) * W (ix2 e (i 1))
    rw [hx e, hw e]

end Cert.LibProduct

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibBiasRow.lean ====
/-
  A bias row added to a matrix, with or without a clamp at zero, read at an entry given by its coordinates, for any
  extents a × b, on the extended reals, in the two spellings programs print.

  * The vector unit's: the matrix and a `[1, b]` row come through identity casts, the row is broadcast down the `a`
    rows and added; the clamp is the maximum with a splat of the zero word.
  * The host's: a `[1, b]` row broadcast down the `a` rows (`broadcast_in_dim` over both axes) and added; the clamp is
    the maximum with the zero word broadcast from a scalar.
  * A `[b]` vector reshaped to the row `[1, b]` is that vector placed as the row by `broadcast_in_dim`.
  Nothing is rearranged, so nothing needs finiteness.
-/
import proofs.«148566_j28887950033462_2_alg».proof.Proof.LibRowMax
import Idealize.ShloMosaic.Lib.ValueLayout
import Idealize.ShloMosaic.Lib.Pipeline.Value
import Idealize.ShloMosaic.PureOps.Ideal.Laws

noncomputable section

namespace Cert.LibBiasRow

open Idealize.ShloMosaic Idealize.ShloMosaic.ValueIdx Cert.LibRowMax

variable {α : Type} {a b : ℕ}

/-- The host's zero matrix (the zero word broadcast from a scalar) reads the zero word at every entry. -/
theorem host_zero_apply (h0 : (⟨0, ![]⟩ : Shape).BroadcastsInDim ⟨2, ![a, b]⟩ ![]) (p : Fin a) (q : Fin b) :
    broadcastInDim ⟨2, ![a, b]⟩ ![] h0 (constant (F := Ideal) ⟨0, ![]⟩ .f32 0x00000000#32) (ix2 p q)
      = Ideal.ofBits .f32 0x00000000#32 :=
  broadcastInDim_apply _ h0 _ (ix2 p q) ix0 (fun ax => ax.elim0)

/-- The vector unit's bias row added to a matrix, at `(p, q)`. -/
theorem vector_bias_apply (y : FVec Ideal ⟨2, ![a, b]⟩ .f32) (β : FVec Ideal ⟨2, ![1, b]⟩ .f32)
    (hβ : (⟨2, ![1, b]⟩ : Shape).ShapeCasts ⟨2, ![1, b]⟩) (hbc : (⟨2, ![1, b]⟩ : Shape).Broadcasts ⟨2, ![a, b]⟩)
    (p : Fin a) (q : Fin b) :
    addf y (broadcastTo ⟨2, ![a, b]⟩ (shapeCast ⟨2, ![1, b]⟩ β hβ) hbc) (ix2 p q) = y (ix2 p q) + β (ix2 (0 : Fin 1) q) := by
  rw [shapeCast_self]
  show y (ix2 p q) + broadcastTo ⟨2, ![a, b]⟩ β hbc (ix2 p q) = _
  rw [broadcastTo_1b_ab_apply β hbc p q]

/-- The vector unit's bias row added to a matrix and clamped at zero, at `(p, q)`. -/
theorem vector_bias_clamp_apply (x : FVec Ideal ⟨2, ![a, b]⟩ .f32) (β : FVec Ideal ⟨2, ![1, b]⟩ .f32)
    (hx : (⟨2, ![a, b]⟩ : Shape).ShapeCasts ⟨2, ![a, b]⟩)
    (hβ : (⟨2, ![1, b]⟩ : Shape).ShapeCasts ⟨2, ![1, b]⟩) (hbc : (⟨2, ![1, b]⟩ : Shape).Broadcasts ⟨2, ![a, b]⟩)
    (p : Fin a) (q : Fin b) :
    maximumf (addf (shapeCast ⟨2, ![a, b]⟩ x hx) (broadcastTo ⟨2, ![a, b]⟩ (shapeCast ⟨2, ![1, b]⟩ β hβ) hbc))
        (broadcast ⟨2, ![a, b]⟩ (Scalar.ofBits (F := Ideal) .f32 0x00000000#32)) (ix2 p q)
      = max (x (ix2 p q) + β (ix2 (0 : Fin 1) q)) (Ideal.ofBits .f32 0x00000000#32) := by
  rw [shapeCast_self, shapeCast_self]
  show max (x (ix2 p q) + broadcastTo ⟨2, ![a, b]⟩ β hbc (ix2 p q)) (Ideal.ofBits .f32 0x00000000#32) = _
  rw [broadcastTo_1b_ab_apply β hbc p q]

/-- The host's bias row added to a matrix, at `(p, q)`. -/
theorem host_bias_apply (Y : FVec Ideal ⟨2, ![a, b]⟩ .f32) (β : FVec Ideal ⟨2, ![1, b]⟩ .f32)
    (h2 : (⟨2, ![1, b]⟩ : Shape).BroadcastsInDim ⟨2, ![a, b]⟩ ![0, 1]) (p : Fin a) (q : Fin b) :
    addf Y (broadcastInDim ⟨2, ![a, b]⟩ ![0, 1] h2 β) (ix2 p q) = Y (ix2 p q) + β (ix2 (0 : Fin 1) q) := by
  show Y (ix2 p q) + broadcastInDim ⟨2, ![a, b]⟩ ![0, 1] h2 β (ix2 p q) = _
  rw [broadcastInDim_1b_ab_apply β h2 p q]

/-- The host's bias row added to a matrix and clamped at zero, at `(p, q)`. -/
theorem host_bias_clamp_apply (X : FVec Ideal ⟨2, ![a, b]⟩ .f32) (β : FVec Ideal ⟨2, ![1, b]⟩ .f32)
    (h2 : (⟨2, ![1, b]⟩ : Shape).BroadcastsInDim ⟨2, ![a, b]⟩ ![0, 1])
    (h0 : (⟨0, ![]⟩ : Shape).BroadcastsInDim ⟨2, ![a, b]⟩ ![]) (p : Fin a) (q : Fin b) :
    maximumf (addf X (broadcastInDim ⟨2, ![a, b]⟩ ![0, 1] h2 β))
        (broadcastInDim ⟨2, ![a, b]⟩ ![] h0 (constant (F := Ideal) ⟨0, ![]⟩ .f32 0x00000000#32)) (ix2 p q)
      = max (X (ix2 p q) + β (ix2 (0 : Fin 1) q)) (Ideal.ofBits .f32 0x00000000#32) := by
  show max (X (ix2 p q) + broadcastInDim ⟨2, ![a, b]⟩ ![0, 1] h2 β (ix2 p q))
      (broadcastInDim ⟨2, ![a, b]⟩ ![] h0 (constant (F := Ideal) ⟨0, ![]⟩ .f32 0x00000000#32) (ix2 p q)) = _
  rw [host_zero_apply h0 p q, broadcastInDim_1b_ab_apply β h2 p q]

/-- A `[b]` vector reshaped to the row `[1, b]` is the vector placed as that row. -/
theorem shapeCast_row_eq (v : (⟨1, ![b]⟩ : Shape).Idx → α) (hc : (⟨1, ![b]⟩ : Shape).ShapeCasts ⟨2, ![1, b]⟩)
    (h : (⟨1, ![b]⟩ : Shape).BroadcastsInDim ⟨2, ![1, b]⟩ ![1]) :
    shapeCast ⟨2, ![1, b]⟩ v hc = broadcastInDim ⟨2, ![1, b]⟩ ![1] h v := by
  funext j
  obtain ⟨u, q, rfl⟩ : ∃ (u : Fin 1) (q : Fin b), j = ix2 u q := ⟨j 0, j 1, eq_ix2 j⟩
  rw [broadcastInDim_b_1b_apply v h u q]
  exact shapeCast_a_1a_apply v hc u q

end Cert.LibBiasRow

end
-- ==== Proof.Spec.lean ====
/-
  The three kernel bodies of the link-scoring graph network as functions of whole arrays, on the extended reals, for
  any extents.

  * `scaledRows x w d`: the projection `x · w` with every row multiplied by that row's weight, the weights held as a
    one-column matrix `d`: entry `(i, j)` is `(Σ_e x(i,e) · w(e,j)) · d(i,0)`.  Both graph-convolution kernels compute it
    (`x` the node features, `w` the layer's weights, `d` the nodes' inverse square-root degrees).
  * `hidden p q wa wb β`: the scorer's hidden layer on a pair of feature rows, `max(p · wa + q · wb + β, 0)` — the
    first layer of the scorer with its weight matrix cut into the half that meets the first node's features and the half
    that meets the second's.
  * `linkScore p q wa wb β w2 β2`: the logistic function of `hidden · w2 + β2`, one score per pair.

  Each is also the vector unit's spelling of it: a matrix-unit product into a zero accumulator of factors rounded to a
  shorter format (the identity on the extended reals), a one-column or one-row matrix spread across the block, the
  pointwise product, sum, maximum and logistic.  And each is LOCAL in the rows: two such values agree at two entries
  as soon as the rows of the left factors (and the weights' entries) they read agree — which is what turns "the block a
  grid point computes from a block of rows" into "those rows of the whole array".
-/
import Idealize.ShloMosaic.PureOps.Ideal
import Idealize.ShloMosaic.PureOps.Ideal.Laws
import Idealize.ShloMosaic.Lib.ValueIdx
import Idealize.ShloMosaic.Lib.Pipeline.Value
import proofs.«148566_j28887950033462_2_alg».proof.Proof.LibProduct
import proofs.«148566_j28887950033462_2_alg».proof.Proof.LibRowMax
import proofs.«148566_j28887950033462_2_alg».proof.Proof.LibColumn
import proofs.«148566_j28887950033462_2_alg».proof.Proof.LibBiasRow

noncomputable section

namespace Cert.LinkScores

open Idealize.ShloMosaic Idealize.ShloMosaic.ValueIdx Cert.LibProduct

variable {a k b g : ℕ}

/-! ## A projection with weighted rows -/

/-- `(x · w)(i, j) · d(i, 0)`. -/
def scaledRows (x : (⟨2, ![a, k]⟩ : Shape).Idx → EReal) (w : (⟨2, ![k, b]⟩ : Shape).Idx → EReal)
    (d : (⟨2, ![a, 1]⟩ : Shape).Idx → EReal) : (⟨2, ![a, b]⟩ : Shape).Idx → EReal :=
  fun j => product x w j * d (ix2 (j 0) (0 : Fin 1))

/-- Two weighted projections agree at two entries when the rows, the columns and the weight they read agree. -/
theorem scaledRows_congr {a' : ℕ} (x : (⟨2, ![a, k]⟩ : Shape).Idx → EReal) (w : (⟨2, ![k, b]⟩ : Shape).Idx → EReal)
    (d : (⟨2, ![a, 1]⟩ : Shape).Idx → EReal) (X : (⟨2, ![a', k]⟩ : Shape).Idx → EReal) (W : (⟨2, ![k, b]⟩ : Shape).Idx → EReal)
    (D : (⟨2, ![a', 1]⟩ : Shape).Idx → EReal) (j : (⟨2, ![a, b]⟩ : Shape).Idx) (i : (⟨2, ![a', b]⟩ : Shape).Idx)
    (hx : ∀ e : Fin k, x (ix2 (j 0) e) = X (ix2 (i 0) e)) (hw : ∀ e : Fin k, w (ix2 e (j 1)) = W (ix2 e (i 1)))
    (hd : d (ix2 (j 0) (0 : Fin 1)) = D (ix2 (i 0) (0 : Fin 1))) :
    scaledRows x w d j = scaledRows X W D i := by
  unfold scaledRows
  rw [product_congr x w X W j i hx hw, hd]

/-- The vector unit's spelling: the rounded factors' product into a zero accumulator, times the weight column spread
    across the lanes. -/
theorem unit_scaledRows (wf : DotDims.WF ⟨2, ![a, k]⟩ ⟨2, ![k, b]⟩ ⟨2, ![a, b]⟩ [1] [0] [0] [1] [] [])
    (x : FVec Ideal ⟨2, ![a, k]⟩ .f32) (w : FVec Ideal ⟨2, ![k, b]⟩ .f32) (d : FVec Ideal ⟨2, ![a, 1]⟩ .f32)
    (h₁ : FTy.bf16.bits < FTy.f32.bits) (h₂ : FTy.bf16.bits < FTy.f32.bits)
    (hc : (⟨2, ![a, 1]⟩ : Shape).ShapeCasts ⟨2, ![a, 1]⟩) (hb : (⟨2, ![a, 1]⟩ : Shape).Broadcasts ⟨2, ![a, b]⟩) :
    mulf (FloatOps.matmul (Cert.LibRowMax.plainDims a k b wf) none (truncf .bf16 x h₁) (truncf .bf16 w h₂)
          (constant ⟨2, ![a, b]⟩ .f32 0x00000000#32))
        (broadcastTo ⟨2, ![a, b]⟩ (shapeCast ⟨2, ![a, 1]⟩ d hc) hb)
      = scaledRows x w d := by
  rw [matmul_rounded_eq wf none x w h₁ h₂, shapeCast_self]
  funext j
  obtain ⟨p, q, rfl⟩ : ∃ (p : Fin a) (q : Fin b), j = ix2 p q := ⟨j 0, j 1, eq_ix2 j⟩
  show product x w (ix2 p q) * broadcastTo ⟨2, ![a, b]⟩ d hb (ix2 p q) = product x w (ix2 p q) * d (ix2 p (0 : Fin 1))
  rw [Cert.LibColumn.broadcastTo_a1_ab_apply d hb p q]

/-! ## The scorer -/

/-- The hidden layer on a pair of rows: `max(p · wa + q · wb + β, 0)`. -/
def hidden (p q : (⟨2, ![a, k]⟩ : Shape).Idx → EReal) (wa wb : (⟨2, ![k, g]⟩ : Shape).Idx → EReal)
    (β : (⟨2, ![1, g]⟩ : Shape).Idx → EReal) : (⟨2, ![a, g]⟩ : Shape).Idx → EReal :=
  fun i => max (product p wa i + product q wb i + β (ix2 (0 : Fin 1) (i 1))) 0

/-- The score of a pair: the logistic function of `hidden · w2 + β2`. -/
def linkScore (p q : (⟨2, ![a, k]⟩ : Shape).Idx → EReal) (wa wb : (⟨2, ![k, g]⟩ : Shape).Idx → EReal)
    (β : (⟨2, ![1, g]⟩ : Shape).Idx → EReal) (w2 : (⟨2, ![g, 1]⟩ : Shape).Idx → EReal)
    (β2 : (⟨2, ![1, 1]⟩ : Shape).Idx → EReal) : (⟨2, ![a, 1]⟩ : Shape).Idx → EReal :=
  fun j => Ideal.logistic (product (hidden p q wa wb β) w2 j + β2 (ix2 (0 : Fin 1) (j 1)))

/-- Two hidden layers agree at two entries when the two rows of features they read agree. -/
theorem hidden_congr {a' : ℕ} (p q : (⟨2, ![a, k]⟩ : Shape).Idx → EReal) (P Q : (⟨2, ![a', k]⟩ : Shape).Idx → EReal)
    (wa wb : (⟨2, ![k, g]⟩ : Shape).Idx → EReal) (β : (⟨2, ![1, g]⟩ : Shape).Idx → EReal)
    (j : (⟨2, ![a, g]⟩ : Shape).Idx) (i : (⟨2, ![a', g]⟩ : Shape).Idx) (hji : j 1 = i 1)
    (hp : ∀ e : Fin k, p (ix2 (j 0) e) = P (ix2 (i 0) e)) (hq : ∀ e : Fin k, q (ix2 (j 0) e) = Q (ix2 (i 0) e)) :
    hidden p q wa wb β j = hidden P Q wa wb β i := by
  unfold hidden
  rw [product_congr p wa P wa j i hp (fun e => by rw [hji]), product_congr q wb Q wb j i hq (fun e => by rw [hji]), hji]

/-- Two scores agree at two entries when the two rows of features they read agree. -/
theorem linkScore_congr {a' : ℕ} (p q : (⟨2, ![a, k]⟩ : Shape).Idx → EReal) (P Q : (⟨2, ![a', k]⟩ : Shape).Idx → EReal)
    (wa wb : (⟨2, ![k, g]⟩ : Shape).Idx → EReal) (β : (⟨2, ![1, g]⟩ : Shape).Idx → EReal)
    (w2 : (⟨2, ![g, 1]⟩ : Shape).Idx → EReal) (β2 : (⟨2, ![1, 1]⟩ : Shape).Idx → EReal)
    (j : (⟨2, ![a, 1]⟩ : Shape).Idx) (i : (⟨2, ![a', 1]⟩ : Shape).Idx)
    (hp : ∀ e : Fin k, p (ix2 (j 0) e) = P (ix2 (i 0) e)) (hq : ∀ e : Fin k, q (ix2 (j 0) e) = Q (ix2 (i 0) e)) :
    linkScore p q wa wb β w2 β2 j = linkScore P Q wa wb β w2 β2 i := by
  have hji : j 1 = i 1 := Fin.ext (by have h1 := idx2_lt1 j; have h2 := idx2_lt1 i; omega)
  unfold linkScore
  rw [product_congr (hidden p q wa wb β) w2 (hidden P Q wa wb β) w2 j i
    (fun e => hidden_congr p q P Q wa wb β (ix2 (j 0) e) (ix2 (i 0) e) rfl hp hq) (fun e => by rw [hji]), hji]

/-- The vector unit's spelling of the scorer on a block of pairs. -/
theorem unit_linkScore
    (wf1 : DotDims.WF ⟨2, ![a, k]⟩ ⟨2, ![k, g]⟩ ⟨2, ![a, g]⟩ [1] [0] [0] [1] [] [])
    (wf2 : DotDims.WF ⟨2, ![a, g]⟩ ⟨2, ![g, 1]⟩ ⟨2, ![a, 1]⟩ [1] [0] [0] [1] [] [])
    (p q : FVec Ideal ⟨2, ![a, k]⟩ .f32) (wa wb : FVec Ideal ⟨2, ![k, g]⟩ .f32) (β : FVec Ideal ⟨2, ![1, g]⟩ .f32)
    (w2 : FVec Ideal ⟨2, ![g, 1]⟩ .f32) (β2 : FVec Ideal ⟨2, ![1, 1]⟩ .f32)
    (hb : FTy.bf16.bits < FTy.f32.bits)
    (hcp : (⟨2, ![a, k]⟩ : Shape).ShapeCasts ⟨2, ![a, k]⟩) (hcw : (⟨2, ![k, g]⟩ : Shape).ShapeCasts ⟨2, ![k, g]⟩)
    (hcβ : (⟨2, ![1, g]⟩ : Shape).ShapeCasts ⟨2, ![1, g]⟩) (hbβ : (⟨2, ![1, g]⟩ : Shape).Broadcasts ⟨2, ![a, g]⟩)
    (hcβ2 : (⟨2, ![1, 1]⟩ : Shape).ShapeCasts ⟨2, ![1, 1]⟩) (hbβ2 : (⟨2, ![1, 1]⟩ : Shape).Broadcasts ⟨2, ![a, 1]⟩) :
    logistic (addf
        (FloatOps.matmul (Cert.LibRowMax.plainDims a g 1 wf2) none
          (truncf .bf16
            (maximumf
              (addf
                (addf
                  (FloatOps.matmul (Cert.LibRowMax.plainDims a k g wf1) none
                    (truncf .bf16 (shapeCast ⟨2, ![a, k]⟩ p hcp) hb) (truncf .bf16 (shapeCast ⟨2, ![k, g]⟩ wa hcw) hb)
                    (constant ⟨2, ![a, g]⟩ .f32 0x00000000#32))
                  (FloatOps.matmul (Cert.LibRowMax.plainDims a k g wf1) none
                    (truncf .bf16 (shapeCast ⟨2, ![a, k]⟩ q hcp) hb) (truncf .bf16 (shapeCast ⟨2, ![k, g]⟩ wb hcw) hb)
                    (constant ⟨2, ![a, g]⟩ .f32 0x00000000#32)))
                (broadcastTo ⟨2, ![a, g]⟩ (shapeCast ⟨2, ![1, g]⟩ β hcβ) hbβ))
              (broadcast ⟨2, ![a, g]⟩ (Scalar.ofBits (F := Ideal) .f32 0x00000000#32))) hb)
          (truncf .bf16 w2 hb) (constant ⟨2, ![a, 1]⟩ .f32 0x00000000#32))
        (broadcastTo ⟨2, ![a, 1]⟩ (shapeCast ⟨2, ![1, 1]⟩ β2 hcβ2) hbβ2))
      = linkScore p q wa wb β w2 β2 := by
  rw [shapeCast_self p, shapeCast_self q, shapeCast_self wa, shapeCast_self wb,
    matmul_rounded_eq wf1 none p wa hb hb, matmul_rounded_eq wf1 none q wb hb hb]
  rw [matmul_rounded_eq wf2 none _ w2 hb hb]
  funext j
  obtain ⟨r, u, rfl⟩ : ∃ (r : Fin a) (u : Fin 1), j = ix2 r u := ⟨j 0, j 1, eq_ix2 j⟩
  show Ideal.logistic (product _ w2 (ix2 r u) + broadcastTo ⟨2, ![a, 1]⟩ (shapeCast ⟨2, ![1, 1]⟩ β2 hcβ2) hbβ2 (ix2 r u))
    = Ideal.logistic (product (hidden p q wa wb β) w2 (ix2 r u) + β2 (ix2 (0 : Fin 1) u))
  have hβ2 : broadcastTo ⟨2, ![a, 1]⟩ (shapeCast ⟨2, ![1, 1]⟩ β2 hcβ2) hbβ2 (ix2 r u) = β2 (ix2 (0 : Fin 1) u) := by
    rw [shapeCast_self]
    refine broadcastTo_apply β2 hbβ2 (ix2 r u) (ix2 (0 : Fin 1) u) fun ax => ?_
    match ax with
    | ⟨0, _⟩ => rfl
    | ⟨1, _⟩ => show u.val = if (1 : ℕ) = 1 then 0 else u.val; rw [if_pos rfl]; exact Fin.val_eq_zero u
  rw [hβ2]
  refine congrArg (fun t => Ideal.logistic (t + β2 (ix2 (0 : Fin 1) u))) ?_
  refine product_congr _ w2 _ w2 (ix2 r u) (ix2 r u) (fun e => ?_) (fun e => rfl)
  show max (addf (addf (product p wa) (product q wb))
        (broadcastTo ⟨2, ![a, g]⟩ (shapeCast ⟨2, ![1, g]⟩ β hcβ) hbβ) (ix2 r e)) (Ideal.ofBits .f32 0x00000000#32)
      = max (product p wa (ix2 r e) + product q wb (ix2 r e) + β (ix2 (0 : Fin 1) e)) 0
  rw [Cert.LibBiasRow.vector_bias_apply _ β hcβ hbβ r e, Ideal.ofBits_zero_f32]
  rfl

end Cert.LinkScores

end
-- ==== Proof.Region0.lean ====
/-
  What graph-convolution region 0 leaves in its output array, whatever the TensorCore's buffers hold when the region is
  entered: the projection of the [100000, 128] features by the [128, 64] weights with every row multiplied by that node's
  weight (`scaledRows`).  The grid has 20 points; point t works on rows 5000·t … 5000·t + 4999: it reads those rows of the
  features and of the one-column weight array and the whole weight matrix, and writes back those rows of the output.  A
  row of the product needs only the same row of the features, so the block a point writes is that block of the whole
  array's function; the 20 blocks tile the 100000 rows, so the array ends holding the function everywhere.
-/
import proofs.«148566_j28887950033462_2_alg».proof.Proof.Gen.KernelIdeal.Frame
import proofs.«148566_j28887950033462_2_alg».proof.Proof.Spec
import Idealize.ShloMosaic.Lib.Pipeline.Value

set_option maxRecDepth 16384

noncomputable section

namespace Cert.KernelIdeal.Region0

open Cert.KernelIdeal Cert.KernelIdeal.Gen Cert.LinkScores
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on a block is the weighted projection of the block. -/
theorem payload_eq (x0 : Vec Ideal S5000x128 .f32) (x1 : Vec Ideal S128x64 .f32) (x2 : Vec Ideal S5000x1 .f32) :
    k0_pay1 x0 x1 x2 = scaledRows x0 x1 x2 := by
  unfold k0_pay1
  exact unit_scaledRows dot_S5000x128_S128x64_S5000x64_1_0_0_1_n_n_wf x0 x1 x2 _ _ _ _

/-- The printed index maps over the grid: the feature rows, the weight column and the output rows move together, one block
    of 5000 rows per point; the weight matrix stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Every block of rows is some point's. -/
theorem index_onto : ∀ q : Fin 20, ∃ t : Fin cfg0.N, win0_3.index t = ![q.val, 0] :=
  (by decide +kernel : ∀ q : Fin 20, ∃ t : Fin grid0.N, win0_3.index t = ![q.val, 0])

/-- What point `t` writes back is block `t` of the weighted projection of the arrays the region finds. -/
theorem flushed_eq (c : Dev nD) (t : Fin cfg0.N) :
    (dat0 V c).flushed 3 t = ((cfg0.win 3).blk t).view.read (Elt Ideal)
      (scaledRows (V c main_arg0) (V c main_arg3) (V c main_v22)) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x64) origin, View.ld_unit_zero (S := S5000x1) origin]
  rw [payload_eq]
  obtain ⟨e0, e1, e2, e3, e4, e5, e6, e7⟩ := index_facts t
  funext j
  show scaledRows (a := 5000) (k := 128) (b := 64)
      (fun y => V c main_arg0 (((cfg0.win 0).blk t).view.emb y)) (fun y => V c main_arg3 (((cfg0.win 1).blk t).view.emb y))
      (fun y => V c main_v22 (((cfg0.win 2).blk t).view.emb y)) j
    = scaledRows (a := 100000) (k := 128) (b := 64) (V c main_arg0) (V c main_arg3) (V c main_v22) (((cfg0.win 3).blk t).view.emb j)
  refine scaledRows_congr _ _ _ _ _ _ j _ (fun e => ?_) (fun e => ?_) ?_
  · show V c main_arg0 (((cfg0.win 0).blk t).view.emb (ix2 (j 0) e)) = V c main_arg0 (ix2 ((((cfg0.win 3).blk t).view.emb j) 0) e)
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * e.val = e.val; omega
  · show V c main_arg3 (((cfg0.win 1).blk t).view.emb (ix2 e (j 1))) = V c main_arg3 (ix2 e ((((cfg0.win 3).blk t).view.emb j) 1))
    refine congrArg _ (funext fun a => Fin.ext ?_)
    match a with
    | ⟨0, _⟩ => show win0_1.index t (0 : Fin 2) * 128 + 1 * e.val = e.val; omega
    | ⟨1, _⟩ => show win0_1.index t (1 : Fin 2) * 64 + 1 * (j 1).val = win0_3.index t (1 : Fin 2) * 64 + 1 * (j 1).val; omega
  · show V c main_v22 (((cfg0.win 2).blk t).view.emb (ix2 (j 0) (0 : Fin 1))) = V c main_v22 (ix2 ((((cfg0.win 3).blk t).view.emb j) 0) (0 : Fin 1))
    refine congrArg _ (funext fun a => Fin.ext ?_)
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega

/-- An index of the output array is in point `t`'s block iff each coordinate is in the block's range on its axis. -/
theorem mem_block (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v23).slice (win0_3.rect t)).set ↔ _
  rw [View.set_slice_whole, Rect.mem_set_unit]
  exact Iff.rfl

/-- Every row of the output array is in the block of the point numbered by the row's quotient by 5000. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- THE OUTPUT ARRAY after the region: the weighted projection of the arrays the region found. -/
theorem array_eq (c : Dev nD) :
    (dat0 V c).arrAt 3 cfg0.N = scaledRows (V c main_arg0) (V c main_arg3) (V c main_v22) :=
  (dat0 V c).arrAt_eq_of_cover 3 _ (fun t _ => flushed_eq V c t) covered

end Cert.KernelIdeal.Region0

end
-- ==== Proof.Region1.lean ====
/-
  What graph-convolution region 1 leaves in its output array, whatever the TensorCore's buffers hold when the region is
  entered: the projection of the [100000, 64] features by the [64, 64] weights with every row multiplied by that node's
  weight (`scaledRows`).  The grid has 20 points; point t works on rows 5000·t … 5000·t + 4999: it reads those rows of the
  features and of the one-column weight array and the whole weight matrix, and writes back those rows of the output.  A
  row of the product needs only the same row of the features, so the block a point writes is that block of the whole
  array's function; the 20 blocks tile the 100000 rows, so the array ends holding the function everywhere.
-/
import proofs.«148566_j28887950033462_2_alg».proof.Proof.Gen.KernelIdeal.Frame
import proofs.«148566_j28887950033462_2_alg».proof.Proof.Spec
import Idealize.ShloMosaic.Lib.Pipeline.Value

set_option maxRecDepth 16384

noncomputable section

namespace Cert.KernelIdeal.Region1

open Cert.KernelIdeal Cert.KernelIdeal.Gen Cert.LinkScores
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on a block is the weighted projection of the block. -/
theorem payload_eq (x0 : Vec Ideal S5000x64 .f32) (x1 : Vec Ideal S64x64 .f32) (x2 : Vec Ideal S5000x1 .f32) :
    k1_pay1 x0 x1 x2 = scaledRows x0 x1 x2 := by
  unfold k1_pay1
  rw [shapeCast_self x0]
  exact unit_scaledRows dot_S5000x64_S64x64_S5000x64_1_0_0_1_n_n_wf x0 x1 x2 _ _ _ _

/-- The printed index maps over the grid: the feature rows, the weight column and the output rows move together, one block
    of 5000 rows per point; the weight matrix stays. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Every block of rows is some point's. -/
theorem index_onto : ∀ q : Fin 20, ∃ t : Fin cfg1.N, win1_3.index t = ![q.val, 0] :=
  (by decide +kernel : ∀ q : Fin 20, ∃ t : Fin grid1.N, win1_3.index t = ![q.val, 0])

/-- What point `t` writes back is block `t` of the weighted projection of the arrays the region finds. -/
theorem flushed_eq (c : Dev nD) (t : Fin cfg1.N) :
    (dat1 V c).flushed 3 t = ((cfg1.win 3).blk t).view.read (Elt Ideal)
      (scaledRows (V c main_v40) (V c main_arg5) (V c main_v41)) := by
  show (cfg1.win 3).cut (grid1.coords t) ((dat1 V c).after 3 t) = _
  rw [after1_3]
  unfold out1_3
  rw [View.canon_unit_zero origin]
  simp only [View.ld_unit_zero (S := S5000x64) origin, View.ld_unit_zero (S := S64x64) origin, View.ld_unit_zero (S := S5000x1) origin]
  rw [payload_eq]
  obtain ⟨e0, e1, e2, e3, e4, e5, e6, e7⟩ := index_facts t
  funext j
  show scaledRows (a := 5000) (k := 64) (b := 64)
      (fun y => V c main_v40 (((cfg1.win 0).blk t).view.emb y)) (fun y => V c main_arg5 (((cfg1.win 1).blk t).view.emb y))
      (fun y => V c main_v41 (((cfg1.win 2).blk t).view.emb y)) j
    = scaledRows (a := 100000) (k := 64) (b := 64) (V c main_v40) (V c main_arg5) (V c main_v41) (((cfg1.win 3).blk t).view.emb j)
  refine scaledRows_congr _ _ _ _ _ _ j _ (fun e => ?_) (fun e => ?_) ?_
  · show V c main_v40 (((cfg1.win 0).blk t).view.emb (ix2 (j 0) e)) = V c main_v40 (ix2 ((((cfg1.win 3).blk t).view.emb j) 0) e)
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * e.val = e.val; omega
  · show V c main_arg5 (((cfg1.win 1).blk t).view.emb (ix2 e (j 1))) = V c main_arg5 (ix2 e ((((cfg1.win 3).blk t).view.emb j) 1))
    refine congrArg _ (funext fun a => Fin.ext ?_)
    match a with
    | ⟨0, _⟩ => show win1_1.index t (0 : Fin 2) * 64 + 1 * e.val = e.val; omega
    | ⟨1, _⟩ => show win1_1.index t (1 : Fin 2) * 64 + 1 * (j 1).val = win1_3.index t (1 : Fin 2) * 64 + 1 * (j 1).val; omega
  · show V c main_v41 (((cfg1.win 2).blk t).view.emb (ix2 (j 0) (0 : Fin 1))) = V c main_v41 (ix2 ((((cfg1.win 3).blk t).view.emb j) 0) (0 : Fin 1))
    refine congrArg _ (funext fun a => Fin.ext ?_)
    match a with
    | ⟨0, _⟩ => show win1_2.index t (0 : Fin 2) * 5000 + 1 * (j 0).val = win1_3.index t (0 : Fin 2) * 5000 + 1 * (j 0).val; omega
    | ⟨1, _⟩ => show win1_2.index t (1 : Fin 2) * 1 + 1 * 0 = 0; omega

/-- An index of the output array is in point `t`'s block iff each coordinate is in the block's range on its axis. -/
theorem mem_block (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v42).slice (win1_3.rect t)).set ↔ _
  rw [View.set_slice_whole, Rect.mem_set_unit]
  exact Iff.rfl

/-- Every row of the output array is in the block of the point numbered by the row's quotient by 5000. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := index_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- THE OUTPUT ARRAY after the region: the weighted projection of the arrays the region found. -/
theorem array_eq (c : Dev nD) :
    (dat1 V c).arrAt 3 cfg1.N = scaledRows (V c main_v40) (V c main_arg5) (V c main_v41) :=
  (dat1 V c).arrAt_eq_of_cover 3 _ (fun t _ => flushed_eq V c t) covered

end Cert.KernelIdeal.Region1

end
-- ==== Proof.Region2.lean ====
/-
  What the link-scoring region leaves in its output array, whatever the TensorCore's buffers hold when the region is
  entered: one score per pair, `linkScore` of the two [500000, 64] arrays of gathered node features, the two halves of the
  scorer's first weight matrix, its bias row, the second layer's weight column and its bias.  The grid has 100 points;
  point t works on pairs 5000·t … 5000·t + 4999: it reads those rows of the two feature arrays, and the five small arrays
  whole, and writes back those rows of the scores.  A pair's score needs only that pair's two rows, so the block a point
  writes is that block of the whole array's function; the 100 blocks tile the 500000 pairs.
-/
import proofs.«148566_j28887950033462_2_alg».proof.Proof.Gen.KernelIdeal.Frame
import proofs.«148566_j28887950033462_2_alg».proof.Proof.Spec
import Idealize.ShloMosaic.Lib.Pipeline.Value

set_option maxRecDepth 16384

noncomputable section

namespace Cert.KernelIdeal.Region2

open Cert.KernelIdeal Cert.KernelIdeal.Gen Cert.LinkScores
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on a block of pairs is the scorer on the block. -/
theorem payload_eq (x0 x1 : Vec Ideal S5000x64 .f32) (x2 x3 : Vec Ideal S64x64 .f32) (x4 : Vec Ideal S1x64 .f32)
    (x5 : Vec Ideal S64x1 .f32) (x6 : Vec Ideal S1x1 .f32) :
    k2_pay1 x0 x1 x2 x3 x4 x5 x6 = linkScore x0 x1 x2 x3 x4 x5 x6 := by
  unfold k2_pay1
  exact unit_linkScore dot_S5000x64_S64x64_S5000x64_1_0_0_1_n_n_wf dot_S5000x64_S64x1_S5000x1_1_0_0_1_n_n_wf
    x0 x1 x2 x3 x4 x5 x6 _ _ _ _ _ _ _

/-- The printed index maps over the grid: the two feature arrays' rows and the scores' rows move together, one block of
    5000 pairs per point. -/
theorem index_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_7.index t (0 : Fin 2) = t.val ∧ win2_7.index t (1 : Fin 2) = 0 :=
  (by decide +kernel : ∀ t : Fin grid2.N, _)

set_option maxHeartbeats 2000000 in
/-- The five small arrays stay at their one block. -/
theorem index_small : ∀ t : Fin cfg2.N, win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Every block of pairs is some point's. -/
theorem index_onto : ∀ q : Fin 100, ∃ t : Fin cfg2.N, win2_7.index t = ![q.val, 0] :=
  (by decide +kernel : ∀ q : Fin 100, ∃ t : Fin grid2.N, win2_7.index t = ![q.val, 0])

/-- Window 2 is one block, the whole of its array: what a point reads through it is the array. -/
theorem whole2 (c : Dev nD) (t : Fin cfg2.N) : iblk2 V c 2 t = V c main_v77 := by
  obtain ⟨e4, e5, e6, e7, e8, e9, e10, e11, e12, e13⟩ := index_small t
  funext y
  show V c main_v77 (((cfg2.win 2).blk t).view.emb y) = V c main_v77 y
  refine congrArg _ (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- Window 3 is one block, the whole of its array: what a point reads through it is the array. -/
theorem whole3 (c : Dev nD) (t : Fin cfg2.N) : iblk2 V c 3 t = V c main_v78 := by
  obtain ⟨e4, e5, e6, e7, e8, e9, e10, e11, e12, e13⟩ := index_small t
  funext y
  show V c main_v78 (((cfg2.win 3).blk t).view.emb y) = V c main_v78 y
  refine congrArg _ (funext fun a => Fin.ext ?_)
  match a with
  | ⟨0, _⟩ => show win2_3.index t (0 : Fin 2) * 64 + 1 * (y 0).val = (y 0).val; omega
  | ⟨1, _⟩ => show win2_3.index t (1 : Fin 2) * 64 + 1 * (y 1).val = (y 1).val; omega

/-- Window 4 is one block, the whole of its array: what a point reads through it is the array. -/
theorem whole4 (c : Dev nD) (t : Fin cfg2.N) : iblk2 V c 4 t = V c main_v79 := by
  obtain ⟨e4, e5, e6, e7, e8, e9, e10, e11, e12, e13⟩ := index_small t
  funext y
  show V c main_v79 (((cfg2.win 4).blk t).view.emb y) = V c main_v79 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- Window 5 is one block, the whole of its array: what a point reads through it is the array. -/
theorem whole5 (c : Dev nD) (t : Fin cfg2.N) : iblk2 V c 5 t = V c main_arg9 := by
  obtain ⟨e4, e5, e6, e7, e8, e9, e10, e11, e12, e13⟩ := index_small t
  funext y
  show V c main_arg9 (((cfg2.win 5).blk t).view.emb y) = V c main_arg9 y
  refine congrArg _ (funext fun a => Fin.ext ?_)
  match a with
  | ⟨0, _⟩ => show win2_5.index t (0 : Fin 2) * 64 + 1 * (y 0).val = (y 0).val; omega
  | ⟨1, _⟩ => show win2_5.index t (1 : Fin 2) * 1 + 1 * (y 1).val = (y 1).val; omega

/-- Window 6 is one block, the whole of its array: what a point reads through it is the array. -/
theorem whole6 (c : Dev nD) (t : Fin cfg2.N) : iblk2 V c 6 t = V c main_v80 := by
  obtain ⟨e4, e5, e6, e7, e8, e9, e10, e11, e12, e13⟩ := index_small t
  funext y
  show V c main_v80 (((cfg2.win 6).blk t).view.emb y) = V c main_v80 y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 1 + 1 * (y 1).val = (y 1).val; omega

set_option maxHeartbeats 4000000 in
/-- What point `t` writes back is block `t` of the scorer on the arrays the region finds. -/
theorem flushed_eq (c : Dev nD) (t : Fin cfg2.N) :
    (dat2 V c).flushed 7 t = ((cfg2.win 7).blk t).view.read (Elt Ideal)
      (linkScore (V c main_v67) (V c main_v76) (V c main_v77) (V c main_v78) (V c main_v79) (V c main_arg9) (V c main_v80)) := by
  show (cfg2.win 7).cut (grid2.coords t) ((dat2 V c).after 7 t) = _
  rw [after2_7, whole2 V c t, whole3 V c t, whole4 V c t, whole5 V c t, whole6 V c t]
  unfold out2_7
  rw [View.canon_unit_zero origin]
  simp only [View.ld_unit_zero (S := S5000x64) origin, View.ld_unit_zero (S := S64x64) origin, View.ld_unit_zero (S := S1x64) origin,
    View.ld_unit_zero (S := S64x1) origin, View.ld_unit_zero (S := S1x1) origin]
  rw [payload_eq]
  obtain ⟨e0, e1, e2, e3, e14, e15⟩ := index_facts t
  funext j
  refine linkScore_congr (a := 5000) (k := 64) (g := 64) (a' := 500000) (iblk2 V c 0 t) (iblk2 V c 1 t) (V c main_v67) (V c main_v76)
    (V c main_v77) (V c main_v78) (V c main_v79) (V c main_arg9) (V c main_v80) j (((cfg2.win 7).blk t).view.emb j) (fun e => ?_) (fun e => ?_)
  · show V c main_v67 (((cfg2.win 0).blk t).view.emb (ix2 (j 0) e)) = V c main_v67 (ix2 ((((cfg2.win 7).blk t).view.emb j) 0) e)
    refine congrArg _ (funext fun a => Fin.ext ?_)
    match a with
    | ⟨0, _⟩ => show win2_0.index t (0 : Fin 2) * 5000 + 1 * (j 0).val = win2_7.index t (0 : Fin 2) * 5000 + 1 * (j 0).val; omega
    | ⟨1, _⟩ => show win2_0.index t (1 : Fin 2) * 64 + 1 * e.val = e.val; omega
  · show V c main_v76 (((cfg2.win 1).blk t).view.emb (ix2 (j 0) e)) = V c main_v76 (ix2 ((((cfg2.win 7).blk t).view.emb j) 0) e)
    refine congrArg _ (funext fun a => Fin.ext ?_)
    match a with
    | ⟨0, _⟩ => show win2_1.index t (0 : Fin 2) * 5000 + 1 * (j 0).val = win2_7.index t (0 : Fin 2) * 5000 + 1 * (j 0).val; omega
    | ⟨1, _⟩ => show win2_1.index t (1 : Fin 2) * 64 + 1 * e.val = e.val; omega

/-- An index of the scores array is in point `t`'s block iff each coordinate is in the block's range on its axis. -/
theorem mem_block (t : Fin cfg2.N) (i : S500000x1.Idx) :
    i ∈ ((cfg2.win 7).blk t).view.set ↔ ∀ a : Fin 2, win2_7.index t a * S5000x1.size a ≤ (i a).val
      ∧ (i a).val < win2_7.index t a * S5000x1.size a + S5000x1.size a := by
  show i ∈ ((View.whole main_v81).slice (win2_7.rect t)).set ↔ _
  rw [View.set_slice_whole, Rect.mem_set_unit]
  exact Iff.rfl

/-- Every pair's score is in the block of the point numbered by the pair's quotient by 5000. -/
theorem covered (i : S500000x1.Idx) :
    ∃ t : Fin cfg2.N, (cfg2.win 7).flush t = true ∧ i ∈ ((cfg2.win 7).blk t).view.set := by
  have hi0 : (i 0).val < 500000 := (i 0).isLt
  have hi1 : (i 1).val < 1 := (i 1).isLt
  obtain ⟨t, ht⟩ := index_onto ⟨(i 0).val / 5000, by omega⟩
  have q0 : win2_7.index t (0 : Fin 2) = (i 0).val / 5000 := congrFun ht 0
  have q1 : win2_7.index t (1 : Fin 2) = 0 := congrFun ht 1
  refine ⟨t, flush2_7 t, ?_⟩
  rw [mem_block]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 1 ≤ (i 1).val ∧ (i 1).val < win2_7.index t (1 : Fin 2) * 1 + 1; omega

/-- THE SCORES ARRAY after the region: the scorer on the arrays the region found. -/
theorem array_eq (c : Dev nD) :
    (dat2 V c).arrAt 7 cfg2.N
      = linkScore (V c main_v67) (V c main_v76) (V c main_v77) (V c main_v78) (V c main_v79) (V c main_arg9) (V c main_v80) :=
  (dat2 V c).arrAt_eq_of_cover 7 _ (fun t _ => flushed_eq V c t) covered

end Cert.KernelIdeal.Region2

end
-- ==== Proof.LibRowGather.lean ====
/-
  `stablehlo.gather` of WHOLE ROWS of a matrix, read at an index.

  What `x[idx]` lowers to for a matrix `x : [N, C]` and an integer array `idx` of row numbers: a gather whose one offset
  axis is the result's last axis, with collapsed_slice_dims `[0]`, start_index_map `[0]`, slice_sizes `[1, C]` and the
  index vector on the start indices' last axis, of extent one. The operand has two axes. Axis 0 is collapsed and named by
  the start index map: its coordinate is the start index, read as a signed integer and clamped into `[0, N − 1]` (the
  clamp that makes the one-row slice fit), with no batching and no offset part. Axis 1 is the one offset axis: it is not
  in the start index map, so its slice starts at `0`, it is not a batching axis, and its offset coordinate is the
  result's coordinate on the offset axis, that is the result's last coordinate. So result element `(…, k)` is `x` at the
  clamped row and column `k`. Stated for start indices `[R, 1]` with result `[R, C]` (`rowsDims`, `gather_rows_apply`)
  and for start indices `[P, A, 1]` with result `[P, A, C]` (`rowsDims3`, `gather_rows3_apply`).
-/
import Idealize.ShloMosaic.PureOps.Ideal
import Idealize.ShloMosaic.Lib.ValueIdx

noncomputable section

namespace Idealize.ShloMosaic.RowGather

open Idealize.ShloMosaic Idealize.ShloMosaic.ValueIdx

/-- The dimension numbers of a gather of whole rows, for an operand `[N, C]`, start indices `[R, 1]` and result `[R, C]`:
    the result's axis 1 is the offset axis, the operand's axis 0 is collapsed and is the one axis the start index names,
    the index vector is the start indices' axis 1, and a slice is one row, `[1, C]`. Their conditions `wf` are decided on
    a program's literal shapes. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(r, k)`: the operand at the row `idx[r, 0]`, read signed and clamped into `[0, N − 1]`,
    and column `k`. On the operand's axis 0 the start is the clamped index and the batching and offset parts are zero; on
    its axis 1 the start and the batching part are zero and the offset part is the result's coordinate `k`. -/
theorem gather_rows_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowsDims N C R wf) x idx (ix2 r k)
      = x (ix2 (⟨min (idx (ix2 r (0 : Fin 1))).toInt.toNat (N - 1), by omega⟩ : Fin N) k) := by
  unfold Host.gather
  congr 1
  funext a
  refine Fin.ext ?_
  match a with
  | ⟨0, _⟩ =>
    show (rowsDims N C R wf).start (ix2 r k) idx 0 + (rowsDims N C R wf).batchCoord (ix2 r k) 0
      + (rowsDims N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r k) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r k) idx 1 + (rowsDims N C R wf).batchCoord (ix2 r k) 1
      + (rowsDims N C R wf).offCoord (ix2 r k) 1 = k.val
    have hstart : (rowsDims N C R wf).start (ix2 r k) idx 1 = 0 := by
      unfold GatherDims.start
      rw [dif_neg (show (1 : Fin 2) ∉ (rowsDims N C R wf).startIndexMap from
        fun h => absurd (List.mem_singleton.mp h) (show ¬ ((1 : Fin 2) = 0) by decide))]
    have hbatch : (rowsDims N C R wf).batchCoord (ix2 r k) 1 = 0 :=
      GatherDims.batchCoord_eq_zero _ _ _ List.not_mem_nil
    have hoff : (rowsDims N C R wf).offCoord (ix2 r k) 1 = k.val := by
      unfold GatherDims.offCoord
      rw [dif_pos ((GatherDims.mem_sKept _ _).mpr
        ⟨fun h => absurd (List.mem_singleton.mp h) (show ¬ ((1 : Fin 2) = 0) by decide), List.not_mem_nil⟩)]
      rfl
    omega

/-- The dimension numbers of a gather of whole rows, for an operand `[N, C]`, start indices `[P, A, 1]` and result
    `[P, A, C]`: the result's axis 2 is the offset axis, the operand's axis 0 is collapsed and is the one axis the start
    index names, the index vector is the start indices' axis 2, and a slice is one row, `[1, C]`. Their conditions `wf`
    are decided on a program's literal shapes. -/
abbrev rowsDims3 (N C P A : Nat)
    (wf : GatherDims.WF ⟨2, ![N, C]⟩ ⟨3, ![P, A, 1]⟩ ⟨3, ![P, A, C]⟩ [2] [0] [] [0] [] 2 ![1, C]) :
    GatherDims ⟨2, ![N, C]⟩ ⟨3, ![P, A, 1]⟩ ⟨3, ![P, A, C]⟩ where
  offsetDims := [2]
  collapsedSliceDims := [0]
  operandBatchingDims := []
  startIndicesBatchingDims := []
  startIndexMap := [0]
  indexVectorDim := 2
  sliceSizes := ![1, C]
  wf := wf

/-- THE GATHER OF ROWS READ AT `(p, a, k)`: the operand at the row `idx[p, a, 0]`, read signed and clamped into
    `[0, N − 1]`, and column `k`. -/
theorem gather_rows3_apply {α : Type} {N C P A w : Nat} (hN : 0 < N)
    (wf : GatherDims.WF ⟨2, ![N, C]⟩ ⟨3, ![P, A, 1]⟩ ⟨3, ![P, A, C]⟩ [2] [0] [] [0] [] 2 ![1, C])
    (x : (⟨2, ![N, C]⟩ : Shape).Idx → α) (idx : IVec ⟨3, ![P, A, 1]⟩ w) (p : Fin P) (a : Fin A) (k : Fin C) :
    Host.gather (rowsDims3 N C P A wf) x idx (ix3 p a k)
      = x (ix2 (⟨min (idx (ix3 p a (0 : Fin 1))).toInt.toNat (N - 1), by omega⟩ : Fin N) k) := by
  unfold Host.gather
  congr 1
  funext c
  refine Fin.ext ?_
  match c with
  | ⟨0, _⟩ =>
    show (rowsDims3 N C P A wf).start (ix3 p a k) idx 0 + (rowsDims3 N C P A wf).batchCoord (ix3 p a k) 0
      + (rowsDims3 N C P A wf).offCoord (ix3 p a k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims3 N C P A wf).startIndexMap from List.mem_singleton.mpr rfl)]
    have hsi : (rowsDims3 N C P A wf).siIdx (ix3 p a k) ⟨List.idxOf (0 : Fin 2) (rowsDims3 N C P A wf).startIndexMap,
        List.idxOf_lt_length_iff.2 (List.mem_singleton.mpr rfl)⟩ = ix3 p a (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims3 N C P A wf).start (ix3 p a k) idx 1 + (rowsDims3 N C P A wf).batchCoord (ix3 p a k) 1
      + (rowsDims3 N C P A wf).offCoord (ix3 p a k) 1 = k.val
    have hstart : (rowsDims3 N C P A wf).start (ix3 p a k) idx 1 = 0 := by
      unfold GatherDims.start
      rw [dif_neg (show (1 : Fin 2) ∉ (rowsDims3 N C P A wf).startIndexMap from
        fun h => absurd (List.mem_singleton.mp h) (show ¬ ((1 : Fin 2) = 0) by decide))]
    have hbatch : (rowsDims3 N C P A wf).batchCoord (ix3 p a k) 1 = 0 :=
      GatherDims.batchCoord_eq_zero _ _ _ List.not_mem_nil
    have hoff : (rowsDims3 N C P A wf).offCoord (ix3 p a k) 1 = k.val := by
      unfold GatherDims.offCoord
      rw [dif_pos ((GatherDims.mem_sKept _ _).mpr
        ⟨fun h => absurd (List.mem_singleton.mp h) (show ¬ ((1 : Fin 2) = 0) by decide), List.not_mem_nil⟩)]
      rfl
    omega

end Idealize.ShloMosaic.RowGather

end
-- ==== Proof.LibGcnAggregate.lean ====
/-
  Scaling a segment sum of gathered rows by a per-node factor, before or after the sum.

  Nodes are numbered 0 … N − 1 and carry a weight `dis i` that is a nonnegative REAL (as an extended real: `0 ≤ dis i`,
  `dis i ≠ ⊤`).  Edge `e` (of R edges) is aggregated at node `row e` and gathers from node `col e`.  For features
  `h : [N, C]` the two arrangements

      agg₁[i, f] = ∑ over the edges e with row e = i of (dis[row e] · dis[col e]) · h[col e, f]      (weights per edge)
      agg₂[i, f] = dis[i] · ∑ over the edges e with row e = i of (dis · h)[col e, f]                 (weights per node)

  are equal entry by entry WHATEVER `h` holds, infinities included: on the edges of segment `i` the first factor
  `dis[row e]` is the constant `dis[i]`, multiplication of extended reals is associative, and a nonnegative finite factor
  distributes over every finite sum of extended reals.  The statement is over the host's operations: an accumulating
  scatter of whole rows (an update whose start index is outside `[0, N)` is dropped; the index is read signed and not
  clamped), gathers of whole rows and of single entries (the index read signed and CLAMPED into `[0, N − 1]`), and the
  "negative index counts from the end" select in front of a gather, which is the identity on the nonnegative indices a
  segment's edges have.

  Also here: the guarded reciprocal square root `if d > 0 then d^(-1/2) else 0` is a nonnegative real for every
  extended real `d` (`⊤ ↦ 0`), which is what makes `dis` such a weight with no assumption on the degrees.
-/
import Idealize.ShloMosaic.PureOps.Ideal
import Idealize.ShloMosaic.PureOps.Ideal.Laws
import Idealize.ShloMosaic.Lib.ValueIdx
import Idealize.ShloMosaic.Lib.Pipeline.Value
import proofs.«148566_j28887950033462_2_alg».proof.Proof.LibRowGather
import proofs.«148566_j28887950033462_2_alg».proof.Proof.LibRowMax

noncomputable section

namespace Cert.LibGcnAggregate

open Idealize.ShloMosaic Idealize.ShloMosaic.ValueIdx

/-! ## Extended reals -/

/-- A nonnegative finite factor distributes over a finite sum of extended reals, whatever the summands. -/
theorem mul_sum_of_nonneg {ι : Type} (s : Finset ι) (f : ι → EReal) {c : EReal} (hc : 0 ≤ c) (hc' : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top hc hc', ih]

/-- `if d > 0 then d^(-1/2) else 0` is a nonnegative real, for every extended real `d`. -/
theorem rsqrt_guard (d : EReal) :
    (0 : EReal) ≤ Scalar.select (Ideal.cmp .ogt d 0) (Ideal.rsqrt d) 0
      ∧ Scalar.select (Ideal.cmp .ogt d 0) (Ideal.rsqrt d) (0 : EReal) ≠ ⊤ := by
  show (0 : EReal) ≤ (if BitVec.ofBool (decide ((0 : EReal) < d)) = 1 then Ideal.rsqrt d else 0)
      ∧ (if BitVec.ofBool (decide ((0 : EReal) < d)) = 1 then Ideal.rsqrt d else (0 : EReal)) ≠ ⊤
  by_cases h : (0 : EReal) < d
  · have h1 : BitVec.ofBool (decide ((0 : EReal) < d)) = 1 := by simp [h]
    rw [if_pos h1]
    induction d using EReal.rec with
    | bot => exact absurd h (by simp)
    | top => exact ⟨by rw [Ideal.rsqrt_top], by rw [Ideal.rsqrt_top]; exact EReal.zero_ne_top⟩
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · have h0 : ¬ BitVec.ofBool (decide ((0 : EReal) < d)) = 1 := by simp [h]
    rw [if_neg h0]
    exact ⟨le_refl _, EReal.zero_ne_top⟩

/-- The host's guarded reciprocal square root of an array, `where(deg > 0, rsqrt(deg), 0)`, is a nonnegative real at
    every index. -/
theorem guarded_rsqrt_weight {s : Shape} (deg z : FVec Ideal s .f32) (hz : ∀ i, z i = 0) (i : s.Idx) :
    0 ≤ select (cmpf .ogt deg z) (Host.rsqrt deg) z i ∧ select (cmpf .ogt deg z) (Host.rsqrt deg) z i ≠ ⊤ := by
  show (0 : EReal) ≤ Scalar.select (Ideal.cmp .ogt (deg i) (z i)) (Ideal.rsqrt (deg i)) (z i)
      ∧ Scalar.select (Ideal.cmp .ogt (deg i) (z i)) (Ideal.rsqrt (deg i)) (z i) ≠ ⊤
  rw [hz i]
  exact rsqrt_guard _

/-! ## The host's layout operations read at an index -/

variable {α : Type}

/-- An `[a]` vector placed as the column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a]` vector as a column across `b` lanes reads, at `(p, q)`, the vector at `p`. -/
theorem column_apply {a b : ℕ} (x : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 x) (ix2 p q) = x (ix1 p) :=
  (Cert.LibRowMax.broadcastInDim_a1_ab_apply _ h2 p q).trans (broadcastInDim_a_a1_apply x h1 p 0)

/-! ## A gather of single entries of a vector -/

/-- The dimension numbers of `x[idx]` for a vector `x : [N]` and start indices `[R, 1]`, result `[R]`: no offset
    axis, the operand's one axis collapsed and named by the start index. -/
abbrev entriesDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather of entries read at `r`: the vector at `idx[r, 0]`, read signed and clamped into `[0, N − 1]`. -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (entriesDims N R wf) x idx (ix1 r)
      = x (ix1 (⟨min (idx (ix2 r (0 : Fin 1))).toInt.toNat (N - 1), by omega⟩ : Fin N)) := by
  unfold Host.gather
  congr 1
  funext a
  refine Fin.ext ?_
  match a with
  | ⟨0, _⟩ =>
    show (entriesDims N R wf).start (ix1 r) idx 0 + (entriesDims N R wf).batchCoord (ix1 r) 0
      + (entriesDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entriesDims N R wf).startIndexMap from List.mem_singleton.mpr rfl)]
    have hsi : (entriesDims N R wf).siIdx (ix1 r) ⟨List.idxOf (0 : Fin 1) (entriesDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-! ## An accumulating scatter of whole rows -/

/-- The dimension numbers of `zeros([N, C]).at[idx].add(updates)` for start indices `[R, 1]` and updates `[R, C]`: the
    updates' axis 1 is the window axis, the operand's axis 0 is inserted and is the one axis the start index names. -/
abbrev rowsScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update row `e` that lands on the operand's row `t 0` has start index `t 0`, read signed. -/
theorem scatter_rows_hit {N C R w : Nat} (wf : ScatterDims.WF ⟨2, ![N, C]⟩ ⟨2, ![R, 1]⟩ ⟨2, ![R, C]⟩ [1] [0] [0] 1)
    (idx : IVec ⟨2, ![R, 1]⟩ w) (e : Fin R) (f : Fin C) (t : (⟨2, ![N, C]⟩ : Shape).Idx)
    (h : (rowsScatter N C R wf).resultIdx? (ix2 e f) idx = some t) :
    (idx (ix2 e (0 : Fin 1))).toInt = ((t 0).val : ℤ) := by
  have hs : (rowsScatter N C R wf).start (ix2 e f) idx 0 = (idx (ix2 e (0 : Fin 1))).toInt := by
    unfold ScatterDims.start
    rw [dif_pos (show (0 : Fin 2) ∈ (rowsScatter N C R wf).scatterDimsToOperandDims from List.mem_singleton.mpr rfl)]
    have hsi : (rowsScatter N C R wf).siIdx (ix2 e f) ⟨List.idxOf (0 : Fin 2) (rowsScatter N C R wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowsScatter N C R wf).window (ix2 e f) 0 = 0 := by
    unfold ScatterDims.window
    rw [dif_neg]
    intro hmem
    have := (List.mem_filter.mp hmem).2
    simp at this
  unfold ScatterDims.resultIdx? at h
  split at h
  · rename_i hall
    have ht := Option.some.inj h
    have h0 : ((rowsScatter N C R wf).start (ix2 e f) idx 0 + ((rowsScatter N C R wf).window (ix2 e f) 0 : ℤ)).toNat
        = (t 0).val := congrArg Fin.val (congrFun ht 0)
    have hpos := (hall 0).1
    rw [hs, hw] at h0 hpos
    omega
  · exact absurd h (by simp)

/-- An accumulating scatter into zeros, entry `t`: if every update that lands on `t` is `c` times the matching update
    of a second scatter, `c` a nonnegative real, then the entry is `c` times the second scatter's entry. -/
theorem scatterAdd_scaled {s si su : Shape} (d : ScatterDims s si su) {w : Nat} (idx : IVec si w)
    (A B : su.Idx → EReal) (t : s.Idx) {c : EReal} (hc : 0 ≤ c) (hc' : c ≠ ⊤)
    (hAB : ∀ u, d.resultIdx? u idx = some t → A u = c * B u) :
    Ideal.hostScatterAdd d (fun _ => 0) idx A t = c * Ideal.hostScatterAdd d (fun _ => 0) idx B t := by
  unfold Ideal.hostScatterAdd
  rw [zero_add, zero_add, mul_sum_of_nonneg _ _ hc hc']
  exact Finset.sum_congr rfl fun u hu => hAB u (Finset.mem_filter.mp hu).2

/-- A start index that is a node number, read signed and clamped into `[0, N − 1]`, is that node. -/
theorem clamp_eq {N : ℕ} (b : BitVec 32) (i : Fin N) (hb : b.toInt = (i.val : ℤ))
    (hlt : min b.toInt.toNat (N - 1) < N) : (⟨min b.toInt.toNat (N - 1), hlt⟩ : Fin N) = i := by
  apply Fin.ext
  show min b.toInt.toNat (N - 1) = i.val
  rw [hb]
  have := i.isLt
  omega

/-! ## The two arrangements of the aggregation -/

section Aggregate

variable {N C R : ℕ}

/-- THE AGGREGATION, WEIGHTED PER EDGE OR PER NODE.  `dis` a nonnegative real weight per node; `row` the node each edge
    is aggregated at (used as it is by the scatter; in front of the gather of `dis` it passes the select that replaces
    a negative index by `X`, which no edge of a segment meets); `colw` the start indices every gather by column uses.
    Scattering the rows `(dis[row e] · dis[col e]) · h[col e, ·]` is, entry by entry, `dis[i]` times scattering the rows
    `(dis · h)[col e, ·]`. -/
theorem aggregate_eq (hN : 0 < N)
    (wfs : ScatterDims.WF ⟨2, ![N, C]⟩ ⟨2, ![R, 1]⟩ ⟨2, ![R, C]⟩ [1] [0] [0] 1)
    (wfg : GatherDims.WF ⟨2, ![N, C]⟩ ⟨2, ![R, 1]⟩ ⟨2, ![R, C]⟩ [1] [0] [] [0] [] 1 ![1, C])
    (wfe : GatherDims.WF ⟨1, ![N]⟩ ⟨2, ![R, 1]⟩ ⟨1, ![R]⟩ [] [0] [] [0] [] 1 ![1])
    (hb0 : (⟨0, ![]⟩ : Shape).BroadcastsInDim ⟨2, ![N, C]⟩ ![])
    (hbz : (⟨0, ![]⟩ : Shape).BroadcastsInDim ⟨1, ![R]⟩ ![])
    (hbR : (⟨1, ![R]⟩ : Shape).BroadcastsInDim ⟨2, ![R, 1]⟩ ![0])
    (hbRC : (⟨2, ![R, 1]⟩ : Shape).BroadcastsInDim ⟨2, ![R, C]⟩ ![0, 1])
    (hbN : (⟨1, ![N]⟩ : Shape).BroadcastsInDim ⟨2, ![N, 1]⟩ ![0])
    (hbNC : (⟨2, ![N, 1]⟩ : Shape).BroadcastsInDim ⟨2, ![N, C]⟩ ![0, 1])
    (dis : FVec Ideal ⟨1, ![N]⟩ .f32) (hdis : ∀ i, 0 ≤ dis i ∧ dis i ≠ ⊤)
    (row X : IVec ⟨1, ![R]⟩ 32) (colw : IVec ⟨2, ![R, 1]⟩ 32) (h : FVec Ideal ⟨2, ![N, C]⟩ .f32) :
    Host.scatterAdd (F := Ideal) (rowsScatter N C R wfs)
        (broadcastInDim ⟨2, ![N, C]⟩ ![] hb0 (constant ⟨0, ![]⟩ .f32 0x00000000#32))
        (broadcastInDim ⟨2, ![R, 1]⟩ ![0] hbR row)
        (mulf
          (broadcastInDim ⟨2, ![R, C]⟩ ![0, 1] hbRC
            (broadcastInDim ⟨2, ![R, 1]⟩ ![0] hbR
              (mulf
                (Host.gather (entriesDims N R wfe) dis
                  (broadcastInDim ⟨2, ![R, 1]⟩ ![0] hbR
                    (select (cmpi .slt row (broadcastInDim ⟨1, ![R]⟩ ![] hbz (constantI ⟨0, ![]⟩ 32 0#32))) X row)))
                (Host.gather (entriesDims N R wfe) dis colw))))
          (Host.gather (Idealize.ShloMosaic.RowGather.rowsDims N C R wfg) h colw))
      = mulf (broadcastInDim ⟨2, ![N, C]⟩ ![0, 1] hbNC (broadcastInDim ⟨2, ![N, 1]⟩ ![0] hbN dis))
          (Host.scatterAdd (F := Ideal) (rowsScatter N C R wfs)
            (broadcastInDim ⟨2, ![N, C]⟩ ![] hb0 (constant ⟨0, ![]⟩ .f32 0x00000000#32))
            (broadcastInDim ⟨2, ![R, 1]⟩ ![0] hbR row)
            (Host.gather (Idealize.ShloMosaic.RowGather.rowsDims N C R wfg)
              (mulf (broadcastInDim ⟨2, ![N, C]⟩ ![0, 1] hbNC (broadcastInDim ⟨2, ![N, 1]⟩ ![0] hbN dis)) h) colw)) := by
  funext j
  obtain ⟨i, f, rfl⟩ : ∃ (i : Fin N) (f : Fin C), j = ix2 i f := ⟨j 0, j 1, eq_ix2 j⟩
  have hz : (broadcastInDim ⟨2, ![N, C]⟩ ![] hb0 (constant (F := Ideal) ⟨0, ![]⟩ .f32 0x00000000#32))
      = fun _ => (0 : EReal) := funext fun _ => Ideal.ofBits_zero_f32
  rw [hz]
  show Ideal.hostScatterAdd (rowsScatter N C R wfs) (fun _ => 0) _ _ (ix2 i f)
    = (broadcastInDim ⟨2, ![N, C]⟩ ![0, 1] hbNC (broadcastInDim ⟨2, ![N, 1]⟩ ![0] hbN dis)) (ix2 i f)
      * Ideal.hostScatterAdd (rowsScatter N C R wfs) (fun _ => 0) _ _ (ix2 i f)
  rw [column_apply dis hbN hbNC i f]
  refine scatterAdd_scaled _ _ _ _ _ (hdis _).1 (hdis _).2 fun u hu => ?_
  obtain ⟨e, g, rfl⟩ : ∃ (e : Fin R) (g : Fin C), u = ix2 e g := ⟨u 0, u 1, eq_ix2 u⟩
  -- the segment's node is the edge's row, read signed
  have hrow : (row (ix1 e)).toInt = (i.val : ℤ) := by
    have := scatter_rows_hit wfs _ e g _ hu
    rwa [broadcastInDim_a_a1_apply row hbR e 0] at this
  -- so the negative-index select keeps it, and the clamp keeps it
  have hsel : (select (cmpi .slt row (broadcastInDim ⟨1, ![R]⟩ ![] hbz (constantI ⟨0, ![]⟩ 32 0#32))) X row) (ix1 e)
      = row (ix1 e) := by
    show Scalar.select (BitVec.ofBool ((row (ix1 e)).slt 0#32)) (X (ix1 e)) (row (ix1 e)) = row (ix1 e)
    have hns : (row (ix1 e)).slt 0#32 = false := by
      rw [BitVec.slt_eq_decide, BitVec.toInt_zero, hrow]
      exact decide_eq_false (by omega)
    rw [hns]
    rfl
  show _ * _ = _ * _
  rw [Cert.LibRowMax.broadcastInDim_a1_ab_apply _ hbRC e g, broadcastInDim_a_a1_apply _ hbR e 0,
    Idealize.ShloMosaic.RowGather.gather_rows_apply hN wfg h colw e g,
    Idealize.ShloMosaic.RowGather.gather_rows_apply hN wfg _ colw e g]
  show (_ * _) * _ = _ * (_ * _)
  rw [gather_entries_apply hN wfe dis _ e, gather_entries_apply hN wfe dis colw e, column_apply dis hbN hbNC]
  have hval : ((broadcastInDim ⟨2, ![R, 1]⟩ ![0] hbR
      (select (cmpi .slt row (broadcastInDim ⟨1, ![R]⟩ ![] hbz (constantI ⟨0, ![]⟩ 32 0#32))) X row))
        (ix2 e (0 : Fin 1))).toInt = (i.val : ℤ) := by
    rw [broadcastInDim_a_a1_apply _ hbR e 0, hsel]; exact hrow
  rw [clamp_eq _ i hval]
  exact mul_assoc _ _ _

end Aggregate

end Cert.LibGcnAggregate

end
-- ==== Proof.LibSegmentScale.lean ====
/-
  Scaling a segment sum of gathered rows by a per-node factor, before the gather or per edge — the arrangement in which
  the per-edge weight multiplies the gathered row from the RIGHT and is the product (weight of the start node) · (weight
  of the end node), in that order.

  Nodes 0 … N − 1 carry a weight `dis i` that is a nonnegative REAL. Edge e (of R) is aggregated at node `row e` (the
  scatter's start index, read signed, an update outside [0, N) dropped) and gathers rows at the start indices `colw`
  (read signed and clamped into [0, N − 1]); the end node's weight is gathered at start indices `roww` of which only
  this is used: on an edge aggregated at node i they name i. For features h : [N, C], entry by entry and whatever h
  holds (infinities included),

      Σ over the edges e aggregated at i of  h[colw e, f] · (dis[colw e] · dis[roww e])
        =  dis[i] · Σ over the same edges of  (h · dis)[colw e, f] :

  on those edges dis[roww e] is the constant dis[i], the product of extended reals is commutative and associative, and
  a nonnegative finite factor distributes over every finite sum of extended reals.
-/
import proofs.«148566_j28887950033462_2_alg».proof.Proof.LibGcnAggregate
import proofs.«148566_j28887950033462_2_alg».proof.Proof.LibRowMax
import Idealize.ShloMosaic.Lib.ValueLayout

noncomputable section

namespace Cert.LibSegmentScale

open Idealize.ShloMosaic Idealize.ShloMosaic.ValueIdx Cert.LibGcnAggregate

section Segment

variable {N C R : ℕ}

/-- THE SEGMENT LAW. `dis` a nonnegative real weight per node; `row` the node each edge is aggregated at, as the scatter
    reads it; `colw` the start indices every gather by start node uses; `roww` the start indices the gather of the end
    node's weight uses, which on an edge aggregated at node `i` name `i` itself (`hroww`). At node `i`, feature `f`, the
    sum of the gathered rows weighted per edge by `dis[start] · dis[end]` is `dis[i]` times the sum of the rows scaled by
    `dis` before the gather. -/
theorem segment_law (hN : 0 < N)
    (wfs : ScatterDims.WF ⟨2, ![N, C]⟩ ⟨2, ![R, 1]⟩ ⟨2, ![R, C]⟩ [1] [0] [0] 1)
    (wfg : GatherDims.WF ⟨2, ![N, C]⟩ ⟨2, ![R, 1]⟩ ⟨2, ![R, C]⟩ [1] [0] [] [0] [] 1 ![1, C])
    (wfe : GatherDims.WF ⟨1, ![N]⟩ ⟨2, ![R, 1]⟩ ⟨1, ![R]⟩ [] [0] [] [0] [] 1 ![1])
    (hb0 : (⟨0, ![]⟩ : Shape).BroadcastsInDim ⟨2, ![N, C]⟩ ![])
    (hbR : (⟨1, ![R]⟩ : Shape).BroadcastsInDim ⟨2, ![R, 1]⟩ ![0])
    (hbRC : (⟨2, ![R, 1]⟩ : Shape).BroadcastsInDim ⟨2, ![R, C]⟩ ![0, 1])
    (dis : FVec Ideal ⟨1, ![N]⟩ .f32) (hdis : ∀ i, 0 ≤ dis i ∧ dis i ≠ ⊤)
    (row : IVec ⟨1, ![R]⟩ 32) (colw roww : IVec ⟨2, ![R, 1]⟩ 32)
    (hroww : ∀ (e : Fin R) (i : Fin N), (row (ix1 e)).toInt = (i.val : ℤ) → (roww (ix2 e (0 : Fin 1))).toInt = (i.val : ℤ))
    (h : FVec Ideal ⟨2, ![N, C]⟩ .f32) (i : Fin N) (f : Fin C) :
    Host.scatterAdd (F := Ideal) (rowsScatter N C R wfs)
        (broadcastInDim ⟨2, ![N, C]⟩ ![] hb0 (constant ⟨0, ![]⟩ .f32 0x00000000#32))
        (broadcastInDim ⟨2, ![R, 1]⟩ ![0] hbR row)
        (mulf (Host.gather (Idealize.ShloMosaic.RowGather.rowsDims N C R wfg) h colw)
          (broadcastInDim ⟨2, ![R, C]⟩ ![0, 1] hbRC
            (broadcastInDim ⟨2, ![R, 1]⟩ ![0] hbR
              (mulf (Host.gather (entriesDims N R wfe) dis colw) (Host.gather (entriesDims N R wfe) dis roww))))) (ix2 i f)
      = dis (ix1 i) * Host.scatterAdd (F := Ideal) (rowsScatter N C R wfs)
          (broadcastInDim ⟨2, ![N, C]⟩ ![] hb0 (constant ⟨0, ![]⟩ .f32 0x00000000#32))
          (broadcastInDim ⟨2, ![R, 1]⟩ ![0] hbR row)
          (Host.gather (Idealize.ShloMosaic.RowGather.rowsDims N C R wfg) (fun j => h j * dis (ix1 (j 0))) colw) (ix2 i f) := by
  have hzero : (broadcastInDim ⟨2, ![N, C]⟩ ![] hb0 (constant (F := Ideal) ⟨0, ![]⟩ .f32 0x00000000#32))
      = fun _ => (0 : EReal) := funext fun _ => Ideal.ofBits_zero_f32
  rw [hzero]
  show Ideal.hostScatterAdd (rowsScatter N C R wfs) (fun _ => 0) _ _ (ix2 i f)
    = dis (ix1 i) * Ideal.hostScatterAdd (rowsScatter N C R wfs) (fun _ => 0) _ _ (ix2 i f)
  refine scatterAdd_scaled _ _ _ _ _ (hdis _).1 (hdis _).2 fun u hu => ?_
  obtain ⟨e, g, rfl⟩ : ∃ (e : Fin R) (g : Fin C), u = ix2 e g := ⟨u 0, u 1, eq_ix2 u⟩
  -- the segment's node is the edge's end node, read signed
  have hrow : (row (ix1 e)).toInt = (i.val : ℤ) := by
    have := scatter_rows_hit wfs _ e g _ hu
    rw [broadcastInDim_a_a1_apply row hbR e 0] at this
    exact this
  have hval : (roww (ix2 e (0 : Fin 1))).toInt = (i.val : ℤ) := hroww e i hrow
  -- the gathers, each at its clamped start index
  show _ * _ = _ * _
  rw [Idealize.ShloMosaic.RowGather.gather_rows_apply hN wfg h colw e g,
    Idealize.ShloMosaic.RowGather.gather_rows_apply hN wfg (fun j => h j * dis (ix1 (j 0))) colw e g,
    Cert.LibRowMax.broadcastInDim_a1_ab_apply _ hbRC e g, broadcastInDim_a_a1_apply _ hbR e 0]
  show _ * (_ * _) = _ * (_ * _)
  rw [gather_entries_apply hN wfe dis colw e, gather_entries_apply hN wfe dis roww e, clamp_eq _ i hval]
  show _ * (_ * dis (ix1 i)) = dis (ix1 i) * (_ * _)
  rw [mul_comm (dis (ix1 i)), mul_assoc]
  rfl

end Segment

end Cert.LibSegmentScale

end
-- ==== Proof.LibGcnLayer.lean ====
/-
  One graph-convolution aggregation in its two arrangements, as whole arrays, for any extents.

  Nodes 0 … N − 1 carry a weight `dis i` that is a nonnegative real.  Edge e (of R) starts at node `src e` and ends at node
  `dst e`; both are 32-bit words read signed.  The aggregation adds, into row `dst e` of a zero [N, C] array, a row gathered
  at `src e`; an edge whose `dst` is outside [0, N) is dropped, a gather clamps its start index into [0, N − 1], and in front
  of every gather a negative index is first replaced by another word (`X` for `src`, `Y` for `dst`: the "count from the end"
  select), which leaves the nonnegative ones alone.

      weights per edge:   out[i, f] = Σ over the edges e into i of  h[src e, f] · (dis[src e] · dis[dst e])
      weights per node:   out[i, f] = dis[i] · Σ over the same edges of  (h · dis)[src e, f]

  On the edges into node i the factor `dis[dst e]` is the constant `dis[i]` (the edge is kept, so `dst e` is a node number, which
  the select and the clamp leave alone), and a nonnegative finite factor distributes over every finite sum of extended
  reals whatever the summands: so the two arrangements are equal entry by entry for EVERY `h`, infinities included.
-/
import proofs.«148566_j28887950033462_2_alg».proof.Proof.LibSegmentScale
import proofs.«148566_j28887950033462_2_alg».proof.Proof.LibGcnAggregate
import proofs.«148566_j28887950033462_2_alg».proof.Proof.LibRowGather
import proofs.«148566_j28887950033462_2_alg».proof.Proof.LibColumn

noncomputable section

namespace Cert.LibGcnLayer

open Idealize.ShloMosaic Idealize.ShloMosaic.ValueIdx Cert.LibGcnAggregate Cert.LibSegmentScale

variable {N C R : ℕ}

/-- A node number read signed is not negative: the "count from the end" select keeps it. -/
theorem select_keeps (hbz : (⟨0, ![]⟩ : Shape).BroadcastsInDim ⟨1, ![R]⟩ ![]) (v X : IVec ⟨1, ![R]⟩ 32) (e : Fin R) (i : Fin N)
    (hv : (v (ix1 e)).toInt = (i.val : ℤ)) :
    (select (cmpi .slt v (broadcastInDim ⟨1, ![R]⟩ ![] hbz (constantI ⟨0, ![]⟩ 32 0#32))) X v) (ix1 e) = v (ix1 e) := by
  show Scalar.select (BitVec.ofBool ((v (ix1 e)).slt 0#32)) (X (ix1 e)) (v (ix1 e)) = v (ix1 e)
  have hns : (v (ix1 e)).slt 0#32 = false := by
    rw [BitVec.slt_eq_decide, BitVec.toInt_zero, hv]
    exact decide_eq_false (by omega)
  rw [hns]
  rfl

/-- THE TWO ARRANGEMENTS OF THE AGGREGATION ARE ONE ARRAY. -/
theorem aggregate_arrangements (hN : 0 < N)
    (wfs : ScatterDims.WF ⟨2, ![N, C]⟩ ⟨2, ![R, 1]⟩ ⟨2, ![R, C]⟩ [1] [0] [0] 1)
    (wfg : GatherDims.WF ⟨2, ![N, C]⟩ ⟨2, ![R, 1]⟩ ⟨2, ![R, C]⟩ [1] [0] [] [0] [] 1 ![1, C])
    (wfe : GatherDims.WF ⟨1, ![N]⟩ ⟨2, ![R, 1]⟩ ⟨1, ![R]⟩ [] [0] [] [0] [] 1 ![1])
    (hb0 : (⟨0, ![]⟩ : Shape).BroadcastsInDim ⟨2, ![N, C]⟩ ![])
    (hbz : (⟨0, ![]⟩ : Shape).BroadcastsInDim ⟨1, ![R]⟩ ![])
    (hbR : (⟨1, ![R]⟩ : Shape).BroadcastsInDim ⟨2, ![R, 1]⟩ ![0])
    (hbRC : (⟨2, ![R, 1]⟩ : Shape).BroadcastsInDim ⟨2, ![R, C]⟩ ![0, 1])
    (hbN : (⟨1, ![N]⟩ : Shape).BroadcastsInDim ⟨2, ![N, 1]⟩ ![0])
    (hbNC : (⟨2, ![N, 1]⟩ : Shape).BroadcastsInDim ⟨2, ![N, C]⟩ ![0, 1])
    (hcN : (⟨1, ![N]⟩ : Shape).ShapeCasts ⟨2, ![N, 1]⟩)
    (dis : FVec Ideal ⟨1, ![N]⟩ .f32) (hdis : ∀ i, 0 ≤ dis i ∧ dis i ≠ ⊤)
    (src dst X Y : IVec ⟨1, ![R]⟩ 32) (h : FVec Ideal ⟨2, ![N, C]⟩ .f32) :
    Host.scatterAdd (F := Ideal) (rowsScatter N C R wfs)
        (broadcastInDim ⟨2, ![N, C]⟩ ![] hb0 (constant ⟨0, ![]⟩ .f32 0x00000000#32))
        (broadcastInDim ⟨2, ![R, 1]⟩ ![0] hbR dst)
        (mulf
          (Host.gather (Idealize.ShloMosaic.RowGather.rowsDims N C R wfg) h
            (broadcastInDim ⟨2, ![R, 1]⟩ ![0] hbR
              (select (cmpi .slt src (broadcastInDim ⟨1, ![R]⟩ ![] hbz (constantI ⟨0, ![]⟩ 32 0#32))) X src)))
          (broadcastInDim ⟨2, ![R, C]⟩ ![0, 1] hbRC
            (broadcastInDim ⟨2, ![R, 1]⟩ ![0] hbR
              (mulf
                (Host.gather (entriesDims N R wfe) dis
                  (broadcastInDim ⟨2, ![R, 1]⟩ ![0] hbR
                    (select (cmpi .slt src (broadcastInDim ⟨1, ![R]⟩ ![] hbz (constantI ⟨0, ![]⟩ 32 0#32))) X src)))
                (Host.gather (entriesDims N R wfe) dis
                  (broadcastInDim ⟨2, ![R, 1]⟩ ![0] hbR
                    (select (cmpi .slt dst (broadcastInDim ⟨1, ![R]⟩ ![] hbz (constantI ⟨0, ![]⟩ 32 0#32))) Y dst)))))))
      = mulf (broadcastInDim ⟨2, ![N, C]⟩ ![0, 1] hbNC (broadcastInDim ⟨2, ![N, 1]⟩ ![0] hbN dis))
          (Host.scatterAdd (F := Ideal) (rowsScatter N C R wfs)
            (broadcastInDim ⟨2, ![N, C]⟩ ![] hb0 (constant ⟨0, ![]⟩ .f32 0x00000000#32))
            (broadcastInDim ⟨2, ![R, 1]⟩ ![0] hbR dst)
            (Host.gather (Idealize.ShloMosaic.RowGather.rowsDims N C R wfg)
              (fun j => h j * shapeCast ⟨2, ![N, 1]⟩ dis hcN (ix2 (j 0) (0 : Fin 1)))
              (broadcastInDim ⟨2, ![R, 1]⟩ ![0] hbR
                (select (cmpi .slt src (broadcastInDim ⟨1, ![R]⟩ ![] hbz (constantI ⟨0, ![]⟩ 32 0#32))) X src)))) := by
  funext j
  obtain ⟨i, f, rfl⟩ : ∃ (i : Fin N) (f : Fin C), j = ix2 i f := ⟨j 0, j 1, eq_ix2 j⟩
  have hscaled : (fun j : (⟨2, ![N, C]⟩ : Shape).Idx => h j * shapeCast ⟨2, ![N, 1]⟩ dis hcN (ix2 (j 0) (0 : Fin 1)))
      = fun j => h j * dis (ix1 (j 0)) :=
    funext fun j => by rw [Cert.LibColumn.shapeCast_a_a1_apply dis hcN (j 0) 0]
  rw [hscaled]
  show _ = (broadcastInDim ⟨2, ![N, C]⟩ ![0, 1] hbNC (broadcastInDim ⟨2, ![N, 1]⟩ ![0] hbN dis)) (ix2 i f) * _
  rw [column_apply dis hbN hbNC i f]
  refine segment_law hN wfs wfg wfe hb0 hbR hbRC dis hdis dst _ _ (fun e i' he => ?_) h i f
  rw [broadcastInDim_a_a1_apply _ hbR e 0, select_keeps hbz dst Y e i' he]
  exact he

end Cert.LibGcnLayer

end
-- ==== Proof.LibFlooredRsqrt.lean ====
/-
  The guarded inverse square-root degree `where(deg > 0, rsqrt(max(deg, 1)), 0)` is a nonnegative real at every index, for
  EVERY array `deg` of extended reals.

  `max(d, 1)` is at least 1, hence positive, whatever `d` is; the ideal reciprocal square root of a positive extended real is
  a nonnegative real (`⊤ ↦ 0`, a positive real `r ↦ 1/√r`); and the other branch of the selection is the real zero.  So the
  weight needs no assumption on the degrees.
-/
import Idealize.ShloMosaic.PureOps.Ideal
import Idealize.ShloMosaic.Lib.IdealHost
import proofs.«148566_j28887950033462_2_alg».proof.Proof.LibGcnAggregate

noncomputable section

namespace Cert.LibFlooredRsqrt

open Idealize.ShloMosaic

/-- The ideal reciprocal square root of a positive extended real is a nonnegative real. -/
theorem rsqrt_of_pos (y : EReal) (hy : 0 < y) : 0 ≤ Ideal.rsqrt y ∧ Ideal.rsqrt y ≠ ⊤ := by
  have h := Cert.LibGcnAggregate.rsqrt_guard y
  have h1 : Scalar.select (Ideal.cmp .ogt y 0) (Ideal.rsqrt y) (0 : EReal) = Ideal.rsqrt y := by
    show (if BitVec.ofBool (decide ((0 : EReal) < y)) = 1 then Ideal.rsqrt y else 0) = _
    rw [if_pos (by simp [hy])]
  rwa [h1] at h

/-- `where(deg > z, rsqrt(max(deg, one)), z')` with `one` reading 1 and `z'` reading 0 everywhere is a nonnegative real at
    every index. -/
theorem floored_rsqrt_weight {s : Shape} (deg z one z' : FVec Ideal s .f32) (hone : ∀ i, one i = 1) (hz' : ∀ i, z' i = 0)
    (i : s.Idx) :
    0 ≤ select (cmpf .ogt deg z) (Host.rsqrt (maximumf deg one)) z' i
      ∧ select (cmpf .ogt deg z) (Host.rsqrt (maximumf deg one)) z' i ≠ ⊤ := by
  show (0 : EReal) ≤ (if Ideal.cmp .ogt (deg i) (z i) = 1 then Ideal.rsqrt (max (deg i) (one i)) else z' i)
      ∧ (if Ideal.cmp .ogt (deg i) (z i) = 1 then Ideal.rsqrt (max (deg i) (one i)) else z' i) ≠ ⊤
  rw [hone i, hz' i]
  have hy : (0 : EReal) < max (deg i) 1 := lt_of_lt_of_le zero_lt_one (le_max_right _ _)
  obtain ⟨h0, h1⟩ := rsqrt_of_pos _ hy
  by_cases hb : Ideal.cmp .ogt (deg i) (z i) = 1
  · rw [if_pos hb]; exact ⟨h0, h1⟩
  · rw [if_neg hb]; exact ⟨le_refl _, EReal.zero_ne_top⟩

end Cert.LibFlooredRsqrt

end
-- ==== Proof.BridgeLayers.lean ====
/-
  The two graph-convolution layers of the two programs are one function of the argument arrays.

  Both programs compute, from the edge list, the same index arrays and the same weights `dis` (the guarded inverse
  square-root degrees), and then, per layer, an aggregation over the edges and the self loops.  The reference projects the
  features (`h = x · W`), gathers a row per edge, multiplies it by `dis[src] · dis[dst]` and adds it into row `dst`; the
  kernel multiplies the rows of the projection by `dis` BEFORE the gather (inside its matrix-product kernel), adds the
  gathered rows into row `dst`, and multiplies row `i` of the sum by `dis[i]` afterwards.  The two are equal entry by entry
  because `dis` is a nonnegative real whatever the degrees are (so it distributes over the sum, whatever the features
  hold): the aggregation law, applied once per layer.  The bias row and the clamp at zero are the same on both sides.
  No finiteness of any input is used.
-/
import proofs.«148566_j28887950033462_2_alg».proof.KernelIdeal
import proofs.«148566_j28887950033462_2_alg».proof.Proof.Gen.KernelIdeal
import proofs.«148566_j28887950033462_2_alg».proof.Proof.RefReadPatched
import proofs.«148566_j28887950033462_2_alg».proof.Proof.Spec
import proofs.«148566_j28887950033462_2_alg».proof.Proof.LibGcnLayer
import proofs.«148566_j28887950033462_2_alg».proof.Proof.LibFlooredRsqrt
import Idealize.ShloMosaic.Lib.IdealHost

set_option maxRecDepth 16384

noncomputable section

namespace Cert.Bridge

open Idealize.ShloMosaic Idealize.ShloMosaic.ValueIdx
open Cert.ReferenceIdeal Cert.ReferenceIdeal.Facts₀ Cert.ReferenceIdeal.Read Cert.LinkScores Cert.LibProduct

variable (a0 : FVec Ideal S100000x128 .f32) (a1 : IVec S2x1600000 32) (a3 : FVec Ideal S128x64 .f32) (a4 : FVec Ideal S64 .f32)
  (a5 : FVec Ideal S64x64 .f32) (a6 : FVec Ideal S64 .f32)

/-- The node weights as a one-column matrix (what both matrix-product kernels read). -/
def disColumn : FVec Ideal Cert.KernelIdeal.S100000x1 .f32 :=
  shapeCast Cert.KernelIdeal.S100000x1 (val_main_v21 (F := Ideal) a1) Cert.KernelIdeal.Facts₀.shapeCasts_S100000_S100000x1

/-- The kernel's layer after its matrix-product kernel: the rows `h` (already weighted) gathered per edge and added into
    the edges' end rows, row `i` of the sum multiplied by `dis[i]`, the bias row added. -/
def kernelTail (h : FVec Ideal S100000x64 .f32) (b : FVec Ideal S64 .f32) : FVec Ideal S100000x64 .f32 :=
  addf
    (mulf
      (broadcastInDim S100000x64 ![0, 1] Cert.KernelIdeal.Facts₀.bcast_S100000x1_S100000x64_0_1
        (broadcastInDim Cert.KernelIdeal.S100000x1 ![0] Cert.KernelIdeal.Facts₀.bcast_S100000_S100000x1_0 (val_main_v21 (F := Ideal) a1)))
      (Host.scatterAdd scatter_S100000x64_S1700000x1_S1700000x64_1_0_0_1 (val_main_v48 (F := Ideal)) (val_main_v49 (F := Ideal) a1)
        (Host.gather gather_S100000x64_S1700000x1_S1700000x64_1_0_n_n_0_1_164 h (val_main_v43 (F := Ideal) a1))))
    (val_main_v52 (F := Ideal) b)

/-- The first layer's output as the kernel computes it. -/
def kernelLayer1 : FVec Ideal S100000x64 .f32 :=
  maximumf (kernelTail a1 (scaledRows a0 a3 (disColumn a1)) a4) (val_main_call1_v0 (F := Ideal))

/-- The second layer's output as the kernel computes it, from a first layer's output `h1`. -/
def kernelLayer2 (h1 : FVec Ideal S100000x64 .f32) : FVec Ideal S100000x64 .f32 :=
  kernelTail a1 (scaledRows h1 a5 (disColumn a1)) a6

/-- The weights are nonnegative reals, whatever the edge list holds. -/
theorem dis_weight (i : S100000.Idx) : 0 ≤ val_main_v21 (F := Ideal) a1 i ∧ val_main_v21 (F := Ideal) a1 i ≠ ⊤ := by
  unfold val_main_v21 val_main_v17 val_main_v20 val_main_v19
  exact Cert.LibFlooredRsqrt.floored_rsqrt_weight _ _ _ _ (fun _ => Idealize.ShloMosaic.Ideal.ofBits_one_f32)
    (fun _ => Ideal.ofBits_zero_f32) i

/-- A projection with its rows weighted is the product's rows times the weights (the spelling the aggregation law uses). -/
theorem scaledRows_eq (x : FVec Ideal S100000x64 .f32) (w : FVec Ideal S64x64 .f32) :
    scaledRows x w (disColumn a1)
      = fun j => Host.dotGeneral dot_S100000x64_S64x64_S100000x64_1_0_0_1_n_n none x w j
          * shapeCast Cert.KernelIdeal.S100000x1 (val_main_v21 (F := Ideal) a1) Cert.KernelIdeal.Facts₀.shapeCasts_S100000_S100000x1 (ix2 (j 0) (0 : Fin 1)) := by
  have hp : Host.dotGeneral dot_S100000x64_S64x64_S100000x64_1_0_0_1_n_n none x w = product x w :=
    dotGeneral_eq dot_S100000x64_S64x64_S100000x64_1_0_0_1_n_n_wf none .single x w
  rw [hp]; rfl

theorem scaledRows_eq128 :
    scaledRows a0 a3 (disColumn a1)
      = fun j => Host.dotGeneral dot_S100000x128_S128x64_S100000x64_1_0_0_1_n_n none a0 a3 j
          * shapeCast Cert.KernelIdeal.S100000x1 (val_main_v21 (F := Ideal) a1) Cert.KernelIdeal.Facts₀.shapeCasts_S100000_S100000x1 (ix2 (j 0) (0 : Fin 1)) := by
  have hp : Host.dotGeneral dot_S100000x128_S128x64_S100000x64_1_0_0_1_n_n none a0 a3 = product a0 a3 :=
    dotGeneral_eq dot_S100000x128_S128x64_S100000x64_1_0_0_1_n_n_wf none .single a0 a3
  rw [hp]; rfl

/-- LAYER 1: the kernel's first layer is the reference's. -/
theorem layer1_eq : kernelLayer1 a0 a1 a3 a4 = val_main_v54 (F := Ideal) a0 a1 a3 a4 := by
  have key := Cert.LibGcnLayer.aggregate_arrangements (N := 100000) (C := 64) (R := 1700000) (by norm_num)
    scatter_S100000x64_S1700000x1_S1700000x64_1_0_0_1_wf gather_S100000x64_S1700000x1_S1700000x64_1_0_n_n_0_1_164_wf
    gather_S100000_S1700000x1_S1700000_n_0_n_n_0_1_1_wf bcast_S_S100000x64 bcast_S_S1700000 bcast_S1700000_S1700000x1_0
    bcast_S1700000x1_S1700000x64_0_1 Cert.KernelIdeal.Facts₀.bcast_S100000_S100000x1_0 Cert.KernelIdeal.Facts₀.bcast_S100000x1_S100000x64_0_1
    Cert.KernelIdeal.Facts₀.shapeCasts_S100000_S100000x1 (val_main_v21 (F := Ideal) a1) (dis_weight a1)
    (val_main_v3 (F := Ideal) a1) (val_main_v6 (F := Ideal) a1) (val_main_v41 (F := Ideal) a1) (val_main_v33 (F := Ideal) a1)
    (val_main_v22 (F := Ideal) a0 a3)
  have e50 : val_main_v50 (F := Ideal) a0 a1 a3 = _ := key
  unfold kernelLayer1 kernelTail
  rw [scaledRows_eq128]
  unfold val_main_v54 val_main_v53
  rw [e50]
  rfl

/-- LAYER 2: from equal first layers, the kernel's second layer is the reference's. -/
theorem layer2_eq :
    kernelLayer2 a1 a5 a6 (val_main_v54 (F := Ideal) a0 a1 a3 a4) = val_main_v86 (F := Ideal) a0 a1 a3 a4 a5 a6 := by
  have key := Cert.LibGcnLayer.aggregate_arrangements (N := 100000) (C := 64) (R := 1700000) (by norm_num)
    scatter_S100000x64_S1700000x1_S1700000x64_1_0_0_1_wf gather_S100000x64_S1700000x1_S1700000x64_1_0_n_n_0_1_164_wf
    gather_S100000_S1700000x1_S1700000_n_0_n_n_0_1_1_wf bcast_S_S100000x64 bcast_S_S1700000 bcast_S1700000_S1700000x1_0
    bcast_S1700000x1_S1700000x64_0_1 Cert.KernelIdeal.Facts₀.bcast_S100000_S100000x1_0 Cert.KernelIdeal.Facts₀.bcast_S100000x1_S100000x64_0_1
    Cert.KernelIdeal.Facts₀.shapeCasts_S100000_S100000x1 (val_main_v21 (F := Ideal) a1) (dis_weight a1)
    (val_main_v3 (F := Ideal) a1) (val_main_v6 (F := Ideal) a1) (val_main_v74 (F := Ideal) a1) (val_main_v66 (F := Ideal) a1)
    (val_main_v55 (F := Ideal) a0 a1 a3 a4 a5)
  have e83 : val_main_v83 (F := Ideal) a0 a1 a3 a4 a5 = _ := key
  unfold kernelLayer2 kernelTail
  rw [scaledRows_eq]
  unfold val_main_v86
  rw [e83]
  rfl

end Cert.Bridge

end
-- ==== Proof.LibStack.lean ====
/-
  Two matrices joined into one, read at an entry given by its coordinates, for any extents.

  Side by side (`[a, b₁]` and `[a, b₂]` joined along the last axis into `[a, t]`): a column below `b₁` reads the left
  matrix at that column, a column `b₁ + k` reads the right matrix at column `k` (`beside_left`, `beside_right`).
  One above the other (`[a₁, b]` and `[a₂, b]` joined along the first axis into `[t, b]`): a row below `a₁` reads the
  upper matrix, a row `a₁ + k` the lower one at row `k` (`above_top`, `above_bottom`).
  The joined extent `t` and the coordinate in it are separate variables tied by an equation between naturals, so the
  lemmas apply to a literal extent such as 128 with pieces of 64 without any arithmetic in a type.
-/
import Idealize.ShloMosaic.Lib.Pipeline.Value
import Idealize.ShloMosaic.Lib.ValueIdx

noncomputable section

namespace Cert.LibStack

open Idealize.ShloMosaic Idealize.ShloMosaic.ValueIdx

variable {α : Type}

/-- Side by side, a column among the first `b₁`: the left matrix at the same row and column. -/
theorem beside_left {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₁) (k' : Fin t) (hk : k'.val = k.val) :
    concatenate ⟨2, ![a, t]⟩ 1 [⟨⟨2, ![a, b₁]⟩, x⟩, ⟨⟨2, ![a, b₂]⟩, y⟩] h (ix2 p k') = x (ix2 p k) :=
  concatenate_pair_apply_left 1 x y h (ix2 p k') rfl (ix2 p k) fun b => by
    match b with
    | ⟨0, _⟩ => rfl
    | ⟨1, _⟩ => exact hk.symm

/-- Side by side, column `b₁ + k`: the right matrix at the same row and column `k`. -/
theorem beside_right {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₂) (k' : Fin t) (hk : k'.val = k.val + b₁) :
    concatenate ⟨2, ![a, t]⟩ 1 [⟨⟨2, ![a, b₁]⟩, x⟩, ⟨⟨2, ![a, b₂]⟩, y⟩] h (ix2 p k') = y (ix2 p k) :=
  concatenate_pair_apply_right 1 x y h (ix2 p k') rfl rfl (ix2 p k)
    (fun b hb => by
      match b with
      | ⟨0, _⟩ => rfl
      | ⟨1, _⟩ => exact absurd rfl hb)
    (by show k.val + b₁ = k'.val; exact hk.symm)

/-- One above the other, a row among the first `a₁`: the upper matrix at the same row and column. -/
theorem above_top {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₁) (k' : Fin t) (q : Fin b) (hk : k'.val = k.val) :
    concatenate ⟨2, ![t, b]⟩ 0 [⟨⟨2, ![a₁, b]⟩, x⟩, ⟨⟨2, ![a₂, b]⟩, y⟩] h (ix2 k' q) = x (ix2 k q) :=
  concatenate_pair_apply_left 0 x y h (ix2 k' q) rfl (ix2 k q) fun b => by
    match b with
    | ⟨0, _⟩ => exact hk.symm
    | ⟨1, _⟩ => rfl

/-- One above the other, row `a₁ + k`: the lower matrix at row `k` and the same column. -/
theorem above_bottom {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₂) (k' : Fin t) (q : Fin b) (hk : k'.val = k.val + a₁) :
    concatenate ⟨2, ![t, b]⟩ 0 [⟨⟨2, ![a₁, b]⟩, x⟩, ⟨⟨2, ![a₂, b]⟩, y⟩] h (ix2 k' q) = y (ix2 k q) :=
  concatenate_pair_apply_right 0 x y h (ix2 k' q) rfl rfl (ix2 k q)
    (fun b hb => by
      match b with
      | ⟨0, _⟩ => exact absurd rfl hb
      | ⟨1, _⟩ => rfl)
    (by show k.val + a₁ = k'.val; exact hk.symm)

end Cert.LibStack

end
-- ==== Proof.BridgeScorer.lean ====
/-
  The link scorer of the two programs is one function of the two gathered feature arrays and the scorer's parameters.

  The reference lays the two nodes' features side by side ([P, 128]), multiplies by the whole first weight matrix
  [128, 64], adds the bias, clamps at zero, multiplies by the second weight column, adds its bias, and takes
  1 / (1 + exp(−x)).  The kernel never forms the [P, 128] array: it multiplies the first node's features by rows 0 … 63
  of the weight matrix and the second node's by rows 64 … 127 and adds the two products.  A contraction over the 128 joined
  features is the contraction over the first 64 plus the contraction over the last 64 — a regrouping of one finite sum,
  which holds for all extended reals —, the bias rows and the clamp are the same, and 1 / (1 + exp(−x)) is the logistic
  function by definition.
-/
import proofs.«148566_j28887950033462_2_alg».proof.KernelIdeal
import proofs.«148566_j28887950033462_2_alg».proof.Proof.Gen.KernelIdeal
import proofs.«148566_j28887950033462_2_alg».proof.Proof.RefReadPatched
import proofs.«148566_j28887950033462_2_alg».proof.Proof.Spec
import proofs.«148566_j28887950033462_2_alg».proof.Proof.LibStack
import proofs.«148566_j28887950033462_2_alg».proof.Proof.LibBiasRow
import Idealize.ShloMosaic.Lib.IdealHost

set_option maxRecDepth 16384

noncomputable section

namespace Cert.Bridge

open Idealize.ShloMosaic Idealize.ShloMosaic.ValueIdx
open Cert.ReferenceIdeal Cert.ReferenceIdeal.Facts₀ Cert.ReferenceIdeal.Read Cert.LinkScores Cert.LibProduct

variable (p q : FVec Ideal S500000x64 .f32) (a7 : FVec Ideal S128x64 .f32) (a8 : FVec Ideal S64 .f32)
  (a9 : FVec Ideal S64x1 .f32) (a10 : FVec Ideal S1 .f32)

/-- The reference's scorer from the two gathered feature arrays on. -/
def refScorer : FVec Ideal S500000x1 .f32 :=
  Host.divf (val_main_v119 (F := Ideal))
    (addf (val_main_v117 (F := Ideal))
      (Host.exp (Host.negf
        (addf
          (Host.dotGeneral dot_S500000x64_S64x1_S500000x1_1_0_0_1_n_n none
            (maximumf
              (addf
                (Host.dotGeneral dot_S500000x128_S128x64_S500000x64_1_0_0_1_n_n none
                  (concatenate S500000x128 1 [⟨S500000x64, p⟩, ⟨S500000x64, q⟩] concatenates_S500000x64_S500000x64_S500000x128_d1) a7)
                (val_main_v108 (F := Ideal) a8))
              (val_main_call2_v0 (F := Ideal)))
            a9)
          (val_main_v113 (F := Ideal) a10)))))

/-- The halves of the first weight matrix, the bias row and the second bias as the kernel reads them. -/
abbrev upperHalf : FVec Ideal S64x64 .f32 := extractStridedSlice S64x64 ![0, 0] a7 Cert.KernelIdeal.Facts₀.slices_S128x64_S64x64_0_0
abbrev lowerHalf : FVec Ideal S64x64 .f32 := extractStridedSlice S64x64 ![64, 0] a7 Cert.KernelIdeal.Facts₀.slices_S128x64_S64x64_64_0
abbrev biasRow : FVec Ideal S1x64 .f32 := shapeCast S1x64 a8 Cert.KernelIdeal.Facts₀.shapeCasts_S64_S1x64
abbrev biasOne : FVec Ideal S1x1 .f32 := shapeCast S1x1 a10 Cert.KernelIdeal.Facts₀.shapeCasts_S1_S1x1

theorem upperHalf_apply (k e : Fin 64) : upperHalf a7 (ix2 k e) = a7 (ix2 (⟨k.val, by omega⟩ : Fin 128) e) :=
  extractStridedSlice_apply _ a7 _ (ix2 k e) _ fun a => by
    match a with
    | ⟨0, _⟩ => show k.val = 0 + k.val; omega
    | ⟨1, _⟩ => show e.val = 0 + e.val; omega

theorem lowerHalf_apply (k e : Fin 64) : lowerHalf a7 (ix2 k e) = a7 (ix2 (⟨64 + k.val, by omega⟩ : Fin 128) e) :=
  extractStridedSlice_apply _ a7 _ (ix2 k e) _ fun a => by
    match a with
    | ⟨0, _⟩ => show 64 + k.val = 64 + k.val; rfl
    | ⟨1, _⟩ => show e.val = 0 + e.val; omega

theorem biasRow_apply (e : Fin 64) : biasRow a8 (ix2 (0 : Fin 1) e) = a8 (ix1 e) := by
  unfold biasRow
  rw [Cert.LibBiasRow.shapeCast_row_eq a8 Cert.KernelIdeal.Facts₀.shapeCasts_S64_S1x64 bcast_S64_S1x64_1]
  exact Cert.LibRowMax.broadcastInDim_b_1b_apply a8 bcast_S64_S1x64_1 0 e

/-- The reference's bias row spread over the pairs reads the bias at the column. -/
theorem refBias_apply (r : Fin 500000) (e : Fin 64) : val_main_v108 (F := Ideal) a8 (ix2 r e) = a8 (ix1 e) := by
  show broadcastInDim S500000x64 ![0, 1] bcast_S1x64_S500000x64_0_1 (broadcastInDim S1x64 ![1] bcast_S64_S1x64_1 a8) (ix2 r e) = _
  rw [Cert.LibRowMax.broadcastInDim_1b_ab_apply _ bcast_S1x64_S500000x64_0_1 r e]
  exact Cert.LibRowMax.broadcastInDim_b_1b_apply a8 bcast_S64_S1x64_1 0 e

theorem biasOne_apply (u : Fin 1) : biasOne a10 (ix2 (0 : Fin 1) u) = a10 (ix1 u) := by
  unfold biasOne
  rw [Cert.LibBiasRow.shapeCast_row_eq a10 Cert.KernelIdeal.Facts₀.shapeCasts_S1_S1x1 bcast_S1_S1x1_1]
  exact Cert.LibRowMax.broadcastInDim_b_1b_apply a10 bcast_S1_S1x1_1 0 u

/-- The reference's second bias spread over the pairs reads the bias. -/
theorem refBiasOne_apply (r : Fin 500000) (u : Fin 1) : val_main_v113 (F := Ideal) a10 (ix2 r u) = a10 (ix1 u) := by
  show broadcastInDim S500000x1 ![0, 1] bcast_S1x1_S500000x1_0_1 (broadcastInDim S1x1 ![1] bcast_S1_S1x1_1 a10) (ix2 r u) = _
  rw [Cert.LibRowMax.broadcastInDim_1b_ab_apply _ bcast_S1x1_S500000x1_0_1 r u]
  exact Cert.LibRowMax.broadcastInDim_b_1b_apply a10 bcast_S1_S1x1_1 0 u

/-- A sum over 128 terms is the sum over the first 64 plus the sum over the last 64. -/
theorem sum_halves (f : Fin 128 → EReal) :
    ∑ k : Fin 128, f k = ∑ k : Fin 64, f ⟨k.val, by omega⟩ + ∑ k : Fin 64, f ⟨64 + k.val, by omega⟩ :=
  Fin.sum_univ_add (a := 64) (b := 64) f

/-- A contraction over 128 joined features is the sum of the contractions over the two halves. -/
theorem joined_contraction (r : Fin 500000) (e : Fin 64) :
    (∑ k : Fin 128, concatenate S500000x128 1 [⟨S500000x64, p⟩, ⟨S500000x64, q⟩] concatenates_S500000x64_S500000x64_S500000x128_d1 (ix2 r k)
        * a7 (ix2 k e))
      = product p (upperHalf a7) (ix2 r e) + product q (lowerHalf a7) (ix2 r e) := by
  rw [sum_halves, product_apply, product_apply]
  congr 1
  · refine Finset.sum_congr rfl fun k _ => ?_
    rw [Cert.LibStack.beside_left p q concatenates_S500000x64_S500000x64_S500000x128_d1 r k ⟨k.val, by omega⟩ rfl, upperHalf_apply]
  · refine Finset.sum_congr rfl fun k _ => ?_
    rw [Cert.LibStack.beside_right p q concatenates_S500000x64_S500000x64_S500000x128_d1 r k ⟨64 + k.val, by omega⟩
      (by show 64 + k.val = k.val + 64; omega), lowerHalf_apply]

/-- THE SCORER: the kernel's, on the halves of the weight matrix, is the reference's, on the joined features. -/
theorem scorer_eq :
    linkScore p q (upperHalf a7) (lowerHalf a7) (biasRow a8) a9 (biasOne a10) = refScorer p q a7 a8 a9 a10 := by
  funext j
  obtain ⟨r, u, rfl⟩ : ∃ (r : Fin 500000) (u : Fin 1), j = ix2 r u := ⟨j 0, j 1, eq_ix2 j⟩
  -- the reference's hidden layer, entry by entry
  have hH : ∀ e : Fin 64,
      (maximumf
          (addf
            (Host.dotGeneral dot_S500000x128_S128x64_S500000x64_1_0_0_1_n_n none
              (concatenate S500000x128 1 [⟨S500000x64, p⟩, ⟨S500000x64, q⟩] concatenates_S500000x64_S500000x64_S500000x128_d1) a7)
            (val_main_v108 (F := Ideal) a8))
          (val_main_call2_v0 (F := Ideal))) (ix2 r e)
        = hidden p q (upperHalf a7) (lowerHalf a7) (biasRow a8) (ix2 r e) := by
    intro e
    show max (FloatOps.dotGeneral dot_S500000x128_S128x64_S500000x64_1_0_0_1_n_n none .single
            (concatenate S500000x128 1 [⟨S500000x64, p⟩, ⟨S500000x64, q⟩] concatenates_S500000x64_S500000x64_S500000x128_d1) a7 (ix2 r e)
          + val_main_v108 (F := Ideal) a8 (ix2 r e)) (Ideal.ofBits .f32 0x00000000#32)
        = max (product p (upperHalf a7) (ix2 r e) + product q (lowerHalf a7) (ix2 r e) + biasRow a8 (ix2 (0 : Fin 1) e)) 0
    rw [show FloatOps.dotGeneral dot_S500000x128_S128x64_S500000x64_1_0_0_1_n_n none .single
            (concatenate S500000x128 1 [⟨S500000x64, p⟩, ⟨S500000x64, q⟩] concatenates_S500000x64_S500000x64_S500000x128_d1) a7 (ix2 r e)
          = ∑ k : Fin 128, concatenate S500000x128 1 [⟨S500000x64, p⟩, ⟨S500000x64, q⟩] concatenates_S500000x64_S500000x64_S500000x128_d1 (ix2 r k)
              * a7 (ix2 k e)
        from Cert.LibRowMax.dotGeneral_plain_apply dot_S500000x128_S128x64_S500000x64_1_0_0_1_n_n_wf none .single _ a7 r e,
      joined_contraction, refBias_apply, biasRow_apply, Ideal.ofBits_zero_f32]
  -- the reference's logit is the kernel's
  have hL : FloatOps.dotGeneral dot_S500000x64_S64x1_S500000x1_1_0_0_1_n_n none .single
        (maximumf
          (addf
            (Host.dotGeneral dot_S500000x128_S128x64_S500000x64_1_0_0_1_n_n none
              (concatenate S500000x128 1 [⟨S500000x64, p⟩, ⟨S500000x64, q⟩] concatenates_S500000x64_S500000x64_S500000x128_d1) a7)
            (val_main_v108 (F := Ideal) a8))
          (val_main_call2_v0 (F := Ideal))) a9 (ix2 r u)
      = product (hidden p q (upperHalf a7) (lowerHalf a7) (biasRow a8)) a9 (ix2 r u) := by
    rw [product_apply]
    exact (Cert.LibRowMax.dotGeneral_plain_apply dot_S500000x64_S64x1_S500000x1_1_0_0_1_n_n_wf none .single _ a9 r u).trans
      (Finset.sum_congr rfl fun e _ => by rw [hH e])
  show Ideal.logistic (product (hidden p q (upperHalf a7) (lowerHalf a7) (biasRow a8)) a9 (ix2 r u) + biasOne a10 (ix2 (0 : Fin 1) u))
    = Ideal.div (Ideal.ofBits .f32 0x3F800000#32)
        (Ideal.ofBits .f32 0x3F800000#32
          + Ideal.exp (-(FloatOps.dotGeneral dot_S500000x64_S64x1_S500000x1_1_0_0_1_n_n none .single _ a9 (ix2 r u)
              + val_main_v113 (F := Ideal) a10 (ix2 r u))))
  rw [hL, Idealize.ShloMosaic.Ideal.ofBits_one_f32, biasOne_apply, refBiasOne_apply]
  rfl

end Cert.Bridge

end
-- ==== Proof.LibStretch.lean ====
/-
  Two general facts about a straight line of host operations, for any program.

  * `after_append`: the buffer contents after two stretches of operations run one after the other are the second
    stretch's fold over the first's — so a long line is read back stretch by stretch, each stretch from whatever
    contents it finds.
  * `ofBuf_toBuf`: a value carried to the type of the buffer a typed reference names and back again is the value;
    the operations of an inlined call write and read their buffers through exactly these two transports, so every
    value that passes from one such operation to the next comes through unchanged. (A value that enters such an
    operation from a plain buffer, or leaves the last one, passes ONE transport: it is removed by
    `eq_of_heq (cast_heq _ _)`, the two types being the same once the reference's type is computed.)
-/
import Idealize.ShloMosaic.Lib.StableHlo.Run

noncomputable section

namespace Cert.LibStretch

open Idealize.ShloMosaic Idealize.ShloMosaic.StableHlo

variable {τ : Topo} {sig : RefSig} {Val : EltTy → Type}

/-- Two stretches one after the other. -/
theorem after_append (l1 l2 : List (HloOp τ sig Val)) (V : Valuation τ sig Val) :
    after (l1 ++ l2) V = after l2 (after l1 V) := by
  induction l1 generalizing V with
  | nil => rfl
  | cons a l ih => exact ih _

/-- Contents carried to a buffer's own type and back are the contents. -/
theorem ofBuf_toBuf {T : BufTy} (x : TRef sig T) (v : T.Contents Val) : x.ofBuf (x.toBuf v) = v := by
  obtain ⟨r, h, h1, h2⟩ := x
  subst h
  rfl

end Cert.LibStretch

end
-- ==== Proof.Fold.lean ====
/-
  The idealized kernel program's result array as a function of its eleven argument arrays.

  The program is eight stretches of host operations around three kernel regions.  Its buffers' contents are followed
  boundary by boundary from the launch memory: a stretch rewrites the buffers its operations write (each to its
  operation's value of the operands' contents) and leaves the others; a region leaves in its output array the function of
  its input arrays that the region's module proves, and every other buffer as it was.  Read back in this way:

    * before the first region the edge list has become the joined index arrays `src`, `dst` (the edges then the self
      loops) and the node weights `dis`, spelt by the very operations the reference uses;
    * the first region writes the weighted projection of the features; the next stretch gathers, aggregates, weights,
      adds the bias and clamps: the kernel's first layer;
    * the second region and stretch do the same from the first layer's output: the second layer; the stretch then
      gathers the two rows of every pair, cuts the scorer's weight matrix in two and lays the biases out as rows;
    * the third region writes the scores, and the last operation flattens the [500000, 1] column to [500000].
-/
import proofs.«148566_j28887950033462_2_alg».proof.Proof.Gen.KernelIdeal.Frame
import proofs.«148566_j28887950033462_2_alg».proof.Proof.Region0
import proofs.«148566_j28887950033462_2_alg».proof.Proof.Region1
import proofs.«148566_j28887950033462_2_alg».proof.Proof.Region2
import proofs.«148566_j28887950033462_2_alg».proof.Proof.BridgeLayers
import proofs.«148566_j28887950033462_2_alg».proof.Proof.BridgeScorer
import proofs.«148566_j28887950033462_2_alg».proof.Proof.RefReadPatched
import Idealize.ShloMosaic.Lib.StableHlo.Run
import proofs.«148566_j28887950033462_2_alg».proof.Proof.LibStretch

set_option maxRecDepth 16384

noncomputable section

namespace Cert.KernelIdeal.Fold

open Cert.KernelIdeal Cert.KernelIdeal.Gen Cert.LinkScores
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The first stretch, cut after the two joined index arrays -/

section Cut
variable {F : FTy → Type} [FloatOps F]

/-- The first seven operations: the node numbers 0 … 99999 and the two joined index arrays. -/
abbrev indexOps : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The other twenty-one: the degrees and the weights. -/
abbrev weightOps : List (HloOp τ sig (Elt F)) :=
  [ StableHlo.nullary main_cst (constant S_ .f32 0x00000000#32),
    StableHlo.unary main_cst main_v7 (broadcastInDim S100000 ![] bcast_S_S100000 : (⟨S_, .f32⟩ : BufTy).Contents (Elt F) → (⟨S100000, .f32⟩ : BufTy).Contents (Elt F)),
    StableHlo.nullary main_c (constantI S_ 32 0#32),
    StableHlo.unary main_c main_v8 (broadcastInDim S1700000 ![] bcast_S_S1700000 : (⟨S_, .i32⟩ : BufTy).Contents (Elt F) → (⟨S1700000, .i32⟩ : BufTy).Contents (Elt F)),
    StableHlo.binary main_v6 main_v8 main_v9 (cmpi .slt : (⟨S1700000, .i32⟩ : BufTy).Contents (Elt F) → (⟨S1700000, .i32⟩ : BufTy).Contents (Elt F) → (⟨S1700000, .i1⟩ : BufTy).Contents (Elt F)),
    StableHlo.nullary main_c_0 (constantI S_ 32 100000#32),
    StableHlo.unary main_c_0 main_v10 (broadcastInDim S1700000 ![] bcast_S_S1700000 : (⟨S_, .i32⟩ : BufTy).Contents (Elt F) → (⟨S1700000, .i32⟩ : BufTy).Contents (Elt F)),
    StableHlo.binary main_v6 main_v10 main_v11 (addi : (⟨S1700000, .i32⟩ : BufTy).Contents (Elt F) → (⟨S1700000, .i32⟩ : BufTy).Contents (Elt F) → (⟨S1700000, .i32⟩ : BufTy).Contents (Elt F)),
    StableHlo.ternary main_v9 main_v11 main_v6 main_v12 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v12 main_v13 (broadcastInDim S1700000x1 ![0] bcast_S1700000_S1700000x1_0 : (⟨S1700000, .i32⟩ : BufTy).Contents (Elt F) → (⟨S1700000x1, .i32⟩ : BufTy).Contents (Elt F)),
    StableHlo.nullary main_cst_1 (constant S_ .f32 0x3F800000#32),
    StableHlo.unary main_cst_1 main_v14 (broadcastInDim S1700000 ![] bcast_S_S1700000 : (⟨S_, .f32⟩ : BufTy).Contents (Elt F) → (⟨S1700000, .f32⟩ : BufTy).Contents (Elt F)),
    StableHlo.ternary main_v7 main_v13 main_v14 main_v15 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_2 (constant S_ .f32 0x00000000#32),
    StableHlo.unary main_cst_2 main_v16 (broadcastInDim S100000 ![] bcast_S_S100000 : (⟨S_, .f32⟩ : BufTy).Contents (Elt F) → (⟨S100000, .f32⟩ : BufTy).Contents (Elt F)),
    StableHlo.binary main_v15 main_v16 main_v17 (cmpf .ogt : (⟨S100000, .f32⟩ : BufTy).Contents (Elt F) → (⟨S100000, .f32⟩ : BufTy).Contents (Elt F) → (⟨S100000, .i1⟩ : BufTy).Contents (Elt F)),
    StableHlo.nullary main_cst_3 (constant S_ .f32 0x3F800000#32),
    StableHlo.unary main_cst_3 main_v18 (broadcastInDim S100000 ![] bcast_S_S100000 : (⟨S_, .f32⟩ : BufTy).Contents (Elt F) → (⟨S100000, .f32⟩ : BufTy).Contents (Elt F)),
    StableHlo.binary main_v15 main_v18 main_v19 (maximumf : (⟨S100000, .f32⟩ : BufTy).Contents (Elt F) → (⟨S100000, .f32⟩ : BufTy).Contents (Elt F) → (⟨S100000, .f32⟩ : BufTy).Contents (Elt F)),
    StableHlo.unary main_v19 main_v20 (Host.rsqrt : (⟨S100000, .f32⟩ : BufTy).Contents (Elt F) → (⟨S100000, .f32⟩ : BufTy).Contents (Elt F)),
    StableHlo.nullary main_cst_4 (constant S_ .f32 0x00000000#32) ]

theorem hostOps0_cut : (hostOps0 : List (HloOp τ sig (Elt F))) = indexOps ++ weightOps := rfl

end Cut

/-! ## The inlined calls' transports

An operation of an inlined call reads and writes its buffers through a transport along "the buffer's type is the value's
type"; for a literal buffer the two types are the same once computed, so each transport is the identity. -/

theorem toBuf_main_v21 (p : main_v21.ty = ⟨S100000, .f32⟩) (q : main_v21.space ≠ .host) (s : main_v21.isScoped = false)
    (X : (⟨S100000, .f32⟩ : BufTy).Contents (Elt Ideal)) : (TRef.of (sig := sig) main_v21 p q s).toBuf X = X :=
  eq_of_heq (cast_heq _ _)
theorem ofBuf_main_v17 (p : main_v17.ty = ⟨S100000, .i1⟩) (q : main_v17.space ≠ .host) (s : main_v17.isScoped = false)
    (X : (⟨S100000, .i1⟩ : BufTy).Contents (Elt Ideal)) : (TRef.of (sig := sig) main_v17 p q s).ofBuf X = X :=
  eq_of_heq (cast_heq _ _)
theorem ofBuf_main_v20 (p : main_v20.ty = ⟨S100000, .f32⟩) (q : main_v20.space ≠ .host) (s : main_v20.isScoped = false)
    (X : (⟨S100000, .f32⟩ : BufTy).Contents (Elt Ideal)) : (TRef.of (sig := sig) main_v20 p q s).ofBuf X = X :=
  eq_of_heq (cast_heq _ _)
theorem ofBuf_main_cst_4 (p : main_cst_4.ty = ⟨S_, .f32⟩) (q : main_cst_4.space ≠ .host) (s : main_cst_4.isScoped = false)
    (X : (⟨S_, .f32⟩ : BufTy).Contents (Elt Ideal)) : (TRef.of (sig := sig) main_cst_4 p q s).ofBuf X = X :=
  eq_of_heq (cast_heq _ _)
theorem toBuf_main_v40 (p : main_v40.ty = ⟨S100000x64, .f32⟩) (q : main_v40.space ≠ .host) (s : main_v40.isScoped = false)
    (X : (⟨S100000x64, .f32⟩ : BufTy).Contents (Elt Ideal)) : (TRef.of (sig := sig) main_v40 p q s).toBuf X = X :=
  eq_of_heq (cast_heq _ _)
theorem ofBuf_main_v39 (p : main_v39.ty = ⟨S100000x64, .f32⟩) (q : main_v39.space ≠ .host) (s : main_v39.isScoped = false)
    (X : (⟨S100000x64, .f32⟩ : BufTy).Contents (Elt Ideal)) : (TRef.of (sig := sig) main_v39 p q s).ofBuf X = X :=
  eq_of_heq (cast_heq _ _)

/-! ## Before the first region -/

theorem at3_main_v3 : W3 m ρ c (Proc.devRef .tc main_v3) = (Cert.ReferenceIdeal.Read.val_main_v3 (F := Ideal) (m ((c : Thread nD τ).loc main_arg1))) := by
  show StableHlo.after hostOps0_2 (StableHlo.after hostOps0_1 (StableHlo.after hostOps0 (W0 m ρ c))) (Proc.devRef .tc main_v3) = _
  simp only [hostOps0_2, hostOps0_1, hostOps0]
  after_results_simp <;> rfl
theorem at3_main_v6 : W3 m ρ c (Proc.devRef .tc main_v6) = (Cert.ReferenceIdeal.Read.val_main_v6 (F := Ideal) (m ((c : Thread nD τ).loc main_arg1))) := by
  show StableHlo.after hostOps0_2 (StableHlo.after hostOps0_1 (StableHlo.after hostOps0 (W0 m ρ c))) (Proc.devRef .tc main_v6) = _
  simp only [hostOps0_2, hostOps0_1, hostOps0]
  after_results_simp <;> rfl
theorem at3_main_v21 : W3 m ρ c (Proc.devRef .tc main_v21) = (Cert.ReferenceIdeal.Read.val_main_v21 (F := Ideal) (m ((c : Thread nD τ).loc main_arg1))) := by
  show StableHlo.after hostOps0_2 (StableHlo.after hostOps0_1 (StableHlo.after hostOps0 (W0 m ρ c))) (Proc.devRef .tc main_v21) = _
  rw [hostOps0_cut, Cert.LibStretch.after_append]
  have h6 : StableHlo.after indexOps (W0 m ρ c) (Proc.devRef .tc main_v6) = (Cert.ReferenceIdeal.Read.val_main_v6 (F := Ideal) (m ((c : Thread nD τ).loc main_arg1))) := by
    simp only [indexOps]
    after_results_simp <;> rfl
  generalize StableHlo.after indexOps (W0 m ρ c) = Wp at h6 ⊢
  simp only [hostOps0_2, hostOps0_1, weightOps]
  after_results_simp
  rw [h6]
  simp only [Cert.LibStretch.ofBuf_toBuf]
  rw [toBuf_main_v21, ofBuf_main_v17, ofBuf_main_v20, ofBuf_main_cst_4]
  rfl

theorem at3_main_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  simp only [hostOps0_2, hostOps0_1, hostOps0]
  after_results_simp <;> rfl
theorem at3_main_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  simp only [hostOps0_2, hostOps0_1, hostOps0]
  after_results_simp <;> rfl
theorem at3_main_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  simp only [hostOps0_2, hostOps0_1, hostOps0]
  after_results_simp <;> rfl
theorem at3_main_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  simp only [hostOps0_2, hostOps0_1, hostOps0]
  after_results_simp <;> rfl
theorem at3_main_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  simp only [hostOps0_2, hostOps0_1, hostOps0]
  after_results_simp <;> rfl
theorem at3_main_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  simp only [hostOps0_2, hostOps0_1, hostOps0]
  after_results_simp <;> rfl
theorem at3_main_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  simp only [hostOps0_2, hostOps0_1, hostOps0]
  after_results_simp <;> rfl
theorem at3_main_arg8 : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  simp only [hostOps0_2, hostOps0_1, hostOps0]
  after_results_simp <;> rfl
theorem at3_main_arg9 : W3 m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  simp only [hostOps0_2, hostOps0_1, hostOps0]
  after_results_simp <;> rfl
theorem at3_main_arg10 : W3 m ρ c (Proc.devRef .tc main_arg10) = (m ((c : Thread nD τ).loc main_arg10)) := by
  show StableHlo.after hostOps0_2 (StableHlo.after hostOps0_1 (StableHlo.after hostOps0 (W0 m ρ c))) (Proc.devRef .tc main_arg10) = _
  simp only [hostOps0_2, hostOps0_1, hostOps0]
  after_results_simp <;> rfl
theorem at3_main_v22 : W3 m ρ c (Proc.devRef .tc main_v22) = Cert.Bridge.disColumn (m ((c : Thread nD τ).loc main_arg1)) := by
  show StableHlo.after hostOps0_2 (StableHlo.after hostOps0_1 (StableHlo.after hostOps0 (W0 m ρ c))) (Proc.devRef .tc main_v22) = _
  rw [hostOps0_cut, Cert.LibStretch.after_append]
  have h6 : StableHlo.after indexOps (W0 m ρ c) (Proc.devRef .tc main_v6) = (Cert.ReferenceIdeal.Read.val_main_v6 (F := Ideal) (m ((c : Thread nD τ).loc main_arg1))) := by
    simp only [indexOps]
    after_results_simp <;> rfl
  generalize StableHlo.after indexOps (W0 m ρ c) = Wp at h6 ⊢
  simp only [hostOps0_2, hostOps0_1, weightOps]
  after_results_simp
  rw [h6]
  simp only [Cert.LibStretch.ofBuf_toBuf]
  rw [toBuf_main_v21, ofBuf_main_v17, ofBuf_main_v20, ofBuf_main_cst_4]
  rfl

/-! ## The first region, and the stretch after it -/

theorem at4_main_v23 : W4 m ρ c (Proc.devRef .tc main_v23) = scaledRows (m ((c : Thread nD τ).loc main_arg0)) (m ((c : Thread nD τ).loc main_arg3)) (Cert.Bridge.disColumn (m ((c : Thread nD τ).loc main_arg1))) := by
  refine (W4_arr m ρ c 3).trans ((Cert.KernelIdeal.Region0.array_eq (V3 m ρ) c).trans ?_)
  rw [show V3 m ρ c main_arg0 = (m ((c : Thread nD τ).loc main_arg0)) from at3_main_arg0 m ρ c, show V3 m ρ c main_arg3 = (m ((c : Thread nD τ).loc main_arg3)) from at3_main_arg3 m ρ c,
    show V3 m ρ c main_v22 = Cert.Bridge.disColumn (m ((c : Thread nD τ).loc main_arg1)) from at3_main_v22 m ρ c]
theorem at4_main_v3 : W4 m ρ c (Proc.devRef .tc main_v3) = (Cert.ReferenceIdeal.Read.val_main_v3 (F := Ideal) (m ((c : Thread nD τ).loc main_arg1))) := (W4_of_ne m ρ c main_v3 (by decide)).trans (at3_main_v3 m ρ c)
theorem at4_main_v6 : W4 m ρ c (Proc.devRef .tc main_v6) = (Cert.ReferenceIdeal.Read.val_main_v6 (F := Ideal) (m ((c : Thread nD τ).loc main_arg1))) := (W4_of_ne m ρ c main_v6 (by decide)).trans (at3_main_v6 m ρ c)
theorem at4_main_v21 : W4 m ρ c (Proc.devRef .tc main_v21) = (Cert.ReferenceIdeal.Read.val_main_v21 (F := Ideal) (m ((c : Thread nD τ).loc main_arg1))) := (W4_of_ne m ρ c main_v21 (by decide)).trans (at3_main_v21 m ρ c)
theorem at4_main_arg2 : W4 m ρ c (Proc.devRef .tc main_arg2) = (m ((c : Thread nD τ).loc main_arg2)) := (W4_of_ne m ρ c main_arg2 (by decide)).trans (at3_main_arg2 m ρ c)
theorem at4_main_arg4 : W4 m ρ c (Proc.devRef .tc main_arg4) = (m ((c : Thread nD τ).loc main_arg4)) := (W4_of_ne m ρ c main_arg4 (by decide)).trans (at3_main_arg4 m ρ c)
theorem at4_main_arg5 : W4 m ρ c (Proc.devRef .tc main_arg5) = (m ((c : Thread nD τ).loc main_arg5)) := (W4_of_ne m ρ c main_arg5 (by decide)).trans (at3_main_arg5 m ρ c)
theorem at4_main_arg6 : W4 m ρ c (Proc.devRef .tc main_arg6) = (m ((c : Thread nD τ).loc main_arg6)) := (W4_of_ne m ρ c main_arg6 (by decide)).trans (at3_main_arg6 m ρ c)
theorem at4_main_arg7 : W4 m ρ c (Proc.devRef .tc main_arg7) = (m ((c : Thread nD τ).loc main_arg7)) := (W4_of_ne m ρ c main_arg7 (by decide)).trans (at3_main_arg7 m ρ c)
theorem at4_main_arg8 : W4 m ρ c (Proc.devRef .tc main_arg8) = (m ((c : Thread nD τ).loc main_arg8)) := (W4_of_ne m ρ c main_arg8 (by decide)).trans (at3_main_arg8 m ρ c)
theorem at4_main_arg9 : W4 m ρ c (Proc.devRef .tc main_arg9) = (m ((c : Thread nD τ).loc main_arg9)) := (W4_of_ne m ρ c main_arg9 (by decide)).trans (at3_main_arg9 m ρ c)
theorem at4_main_arg10 : W4 m ρ c (Proc.devRef .tc main_arg10) = (m ((c : Thread nD τ).loc main_arg10)) := (W4_of_ne m ρ c main_arg10 (by decide)).trans (at3_main_arg10 m ρ c)

theorem at7_main_v40 : W7 m ρ c (Proc.devRef .tc main_v40) = Cert.Bridge.kernelLayer1 (m ((c : Thread nD τ).loc main_arg0)) (m ((c : Thread nD τ).loc main_arg1)) (m ((c : Thread nD τ).loc main_arg3)) (m ((c : Thread nD τ).loc main_arg4)) := by
  show StableHlo.after hostOps1_2 (StableHlo.after hostOps1_1 (StableHlo.after hostOps1 (W4 m ρ c))) (Proc.devRef .tc main_v40) = _
  simp only [hostOps1_2, hostOps1_1, hostOps1]
  after_results_simp
  rw [at4_main_v23 m ρ c, at4_main_v3 m ρ c, at4_main_v6 m ρ c, at4_main_v21 m ρ c, at4_main_arg4 m ρ c]
  simp only [Cert.LibStretch.ofBuf_toBuf]
  rw [toBuf_main_v40, ofBuf_main_v39]
  rfl
theorem at7_main_v41 : W7 m ρ c (Proc.devRef .tc main_v41) = Cert.Bridge.disColumn (m ((c : Thread nD τ).loc main_arg1)) := by
  show StableHlo.after hostOps1_2 (StableHlo.after hostOps1_1 (StableHlo.after hostOps1 (W4 m ρ c))) (Proc.devRef .tc main_v41) = _
  simp only [hostOps1_2, hostOps1_1, hostOps1]
  after_results_simp
  rw [at4_main_v21 m ρ c]
  rfl
theorem at7_main_v3 : W7 m ρ c (Proc.devRef .tc main_v3) = (Cert.ReferenceIdeal.Read.val_main_v3 (F := Ideal) (m ((c : Thread nD τ).loc main_arg1))) := by
  refine Eq.trans ?_ (at4_main_v3 m ρ c)
  show StableHlo.after hostOps1_2 (StableHlo.after hostOps1_1 (StableHlo.after hostOps1 (W4 m ρ c))) (Proc.devRef .tc main_v3) = _
  simp only [hostOps1_2, hostOps1_1, hostOps1]
  after_results_simp <;> rfl
theorem at7_main_v6 : W7 m ρ c (Proc.devRef .tc main_v6) = (Cert.ReferenceIdeal.Read.val_main_v6 (F := Ideal) (m ((c : Thread nD τ).loc main_arg1))) := by
  refine Eq.trans ?_ (at4_main_v6 m ρ c)
  show StableHlo.after hostOps1_2 (StableHlo.after hostOps1_1 (StableHlo.after hostOps1 (W4 m ρ c))) (Proc.devRef .tc main_v6) = _
  simp only [hostOps1_2, hostOps1_1, hostOps1]
  after_results_simp <;> rfl
theorem at7_main_v21 : W7 m ρ c (Proc.devRef .tc main_v21) = (Cert.ReferenceIdeal.Read.val_main_v21 (F := Ideal) (m ((c : Thread nD τ).loc main_arg1))) := by
  refine Eq.trans ?_ (at4_main_v21 m ρ c)
  show StableHlo.after hostOps1_2 (StableHlo.after hostOps1_1 (StableHlo.after hostOps1 (W4 m ρ c))) (Proc.devRef .tc main_v21) = _
  simp only [hostOps1_2, hostOps1_1, hostOps1]
  after_results_simp <;> rfl
theorem at7_main_arg2 : W7 m ρ c (Proc.devRef .tc main_arg2) = (m ((c : Thread nD τ).loc main_arg2)) := by
  refine Eq.trans ?_ (at4_main_arg2 m ρ c)
  show StableHlo.after hostOps1_2 (StableHlo.after hostOps1_1 (StableHlo.after hostOps1 (W4 m ρ c))) (Proc.devRef .tc main_arg2) = _
  simp only [hostOps1_2, hostOps1_1, hostOps1]
  after_results_simp <;> rfl
theorem at7_main_arg5 : W7 m ρ c (Proc.devRef .tc main_arg5) = (m ((c : Thread nD τ).loc main_arg5)) := by
  refine Eq.trans ?_ (at4_main_arg5 m ρ c)
  show StableHlo.after hostOps1_2 (StableHlo.after hostOps1_1 (StableHlo.after hostOps1 (W4 m ρ c))) (Proc.devRef .tc main_arg5) = _
  simp only [hostOps1_2, hostOps1_1, hostOps1]
  after_results_simp <;> rfl
theorem at7_main_arg6 : W7 m ρ c (Proc.devRef .tc main_arg6) = (m ((c : Thread nD τ).loc main_arg6)) := by
  refine Eq.trans ?_ (at4_main_arg6 m ρ c)
  show StableHlo.after hostOps1_2 (StableHlo.after hostOps1_1 (StableHlo.after hostOps1 (W4 m ρ c))) (Proc.devRef .tc main_arg6) = _
  simp only [hostOps1_2, hostOps1_1, hostOps1]
  after_results_simp <;> rfl
theorem at7_main_arg7 : W7 m ρ c (Proc.devRef .tc main_arg7) = (m ((c : Thread nD τ).loc main_arg7)) := by
  refine Eq.trans ?_ (at4_main_arg7 m ρ c)
  show StableHlo.after hostOps1_2 (StableHlo.after hostOps1_1 (StableHlo.after hostOps1 (W4 m ρ c))) (Proc.devRef .tc main_arg7) = _
  simp only [hostOps1_2, hostOps1_1, hostOps1]
  after_results_simp <;> rfl
theorem at7_main_arg8 : W7 m ρ c (Proc.devRef .tc main_arg8) = (m ((c : Thread nD τ).loc main_arg8)) := by
  refine Eq.trans ?_ (at4_main_arg8 m ρ c)
  show StableHlo.after hostOps1_2 (StableHlo.after hostOps1_1 (StableHlo.after hostOps1 (W4 m ρ c))) (Proc.devRef .tc main_arg8) = _
  simp only [hostOps1_2, hostOps1_1, hostOps1]
  after_results_simp <;> rfl
theorem at7_main_arg9 : W7 m ρ c (Proc.devRef .tc main_arg9) = (m ((c : Thread nD τ).loc main_arg9)) := by
  refine Eq.trans ?_ (at4_main_arg9 m ρ c)
  show StableHlo.after hostOps1_2 (StableHlo.after hostOps1_1 (StableHlo.after hostOps1 (W4 m ρ c))) (Proc.devRef .tc main_arg9) = _
  simp only [hostOps1_2, hostOps1_1, hostOps1]
  after_results_simp <;> rfl
theorem at7_main_arg10 : W7 m ρ c (Proc.devRef .tc main_arg10) = (m ((c : Thread nD τ).loc main_arg10)) := by
  refine Eq.trans ?_ (at4_main_arg10 m ρ c)
  show StableHlo.after hostOps1_2 (StableHlo.after hostOps1_1 (StableHlo.after hostOps1 (W4 m ρ c))) (Proc.devRef .tc main_arg10) = _
  simp only [hostOps1_2, hostOps1_1, hostOps1]
  after_results_simp <;> rfl

/-! ## The second region, and the stretch after it -/

theorem at8_main_v42 : W8 m ρ c (Proc.devRef .tc main_v42)
    = scaledRows (Cert.Bridge.kernelLayer1 (m ((c : Thread nD τ).loc main_arg0)) (m ((c : Thread nD τ).loc main_arg1)) (m ((c : Thread nD τ).loc main_arg3)) (m ((c : Thread nD τ).loc main_arg4))) (m ((c : Thread nD τ).loc main_arg5)) (Cert.Bridge.disColumn (m ((c : Thread nD τ).loc main_arg1))) := by
  refine (W8_arr m ρ c 3).trans ((Cert.KernelIdeal.Region1.array_eq (V7 m ρ) c).trans ?_)
  rw [show V7 m ρ c main_v40 = Cert.Bridge.kernelLayer1 (m ((c : Thread nD τ).loc main_arg0)) (m ((c : Thread nD τ).loc main_arg1)) (m ((c : Thread nD τ).loc main_arg3)) (m ((c : Thread nD τ).loc main_arg4)) from at7_main_v40 m ρ c,
    show V7 m ρ c main_arg5 = (m ((c : Thread nD τ).loc main_arg5)) from at7_main_arg5 m ρ c,
    show V7 m ρ c main_v41 = Cert.Bridge.disColumn (m ((c : Thread nD τ).loc main_arg1)) from at7_main_v41 m ρ c]
theorem at8_main_v3 : W8 m ρ c (Proc.devRef .tc main_v3) = (Cert.ReferenceIdeal.Read.val_main_v3 (F := Ideal) (m ((c : Thread nD τ).loc main_arg1))) := (W8_of_ne m ρ c main_v3 (by decide)).trans (at7_main_v3 m ρ c)
theorem at8_main_v6 : W8 m ρ c (Proc.devRef .tc main_v6) = (Cert.ReferenceIdeal.Read.val_main_v6 (F := Ideal) (m ((c : Thread nD τ).loc main_arg1))) := (W8_of_ne m ρ c main_v6 (by decide)).trans (at7_main_v6 m ρ c)
theorem at8_main_v21 : W8 m ρ c (Proc.devRef .tc main_v21) = (Cert.ReferenceIdeal.Read.val_main_v21 (F := Ideal) (m ((c : Thread nD τ).loc main_arg1))) := (W8_of_ne m ρ c main_v21 (by decide)).trans (at7_main_v21 m ρ c)
theorem at8_main_arg2 : W8 m ρ c (Proc.devRef .tc main_arg2) = (m ((c : Thread nD τ).loc main_arg2)) := (W8_of_ne m ρ c main_arg2 (by decide)).trans (at7_main_arg2 m ρ c)
theorem at8_main_arg6 : W8 m ρ c (Proc.devRef .tc main_arg6) = (m ((c : Thread nD τ).loc main_arg6)) := (W8_of_ne m ρ c main_arg6 (by decide)).trans (at7_main_arg6 m ρ c)
theorem at8_main_arg7 : W8 m ρ c (Proc.devRef .tc main_arg7) = (m ((c : Thread nD τ).loc main_arg7)) := (W8_of_ne m ρ c main_arg7 (by decide)).trans (at7_main_arg7 m ρ c)
theorem at8_main_arg8 : W8 m ρ c (Proc.devRef .tc main_arg8) = (m ((c : Thread nD τ).loc main_arg8)) := (W8_of_ne m ρ c main_arg8 (by decide)).trans (at7_main_arg8 m ρ c)
theorem at8_main_arg9 : W8 m ρ c (Proc.devRef .tc main_arg9) = (m ((c : Thread nD τ).loc main_arg9)) := (W8_of_ne m ρ c main_arg9 (by decide)).trans (at7_main_arg9 m ρ c)
theorem at8_main_arg10 : W8 m ρ c (Proc.devRef .tc main_arg10) = (m ((c : Thread nD τ).loc main_arg10)) := (W8_of_ne m ρ c main_arg10 (by decide)).trans (at7_main_arg10 m ρ c)

theorem at9_main_v67 : W9 m ρ c (Proc.devRef .tc main_v67)
    = Host.gather gather_S100000x64_S500000x1_S500000x64_1_0_n_n_0_1_164 (Cert.Bridge.kernelLayer2 (m ((c : Thread nD τ).loc main_arg1)) (m ((c : Thread nD τ).loc main_arg5)) (m ((c : Thread nD τ).loc main_arg6)) (Cert.Bridge.kernelLayer1 (m ((c : Thread nD τ).loc main_arg0)) (m ((c : Thread nD τ).loc main_arg1)) (m ((c : Thread nD τ).loc main_arg3)) (m ((c : Thread nD τ).loc main_arg4)))) (Cert.ReferenceIdeal.Read.val_main_v94 (F := Ideal) (m ((c : Thread nD τ).loc main_arg2))) := by
  show StableHlo.after hostOps2 (W8 m ρ c) (Proc.devRef .tc main_v67) = _
  simp only [hostOps2]
  after_results_simp
  rw [at8_main_v42 m ρ c, at8_main_v3 m ρ c, at8_main_v6 m ρ c, at8_main_v21 m ρ c, at8_main_arg6 m ρ c, at8_main_arg2 m ρ c]
  rfl
theorem at9_main_v76 : W9 m ρ c (Proc.devRef .tc main_v76)
    = Host.gather gather_S100000x64_S500000x1_S500000x64_1_0_n_n_0_1_164 (Cert.Bridge.kernelLayer2 (m ((c : Thread nD τ).loc main_arg1)) (m ((c : Thread nD τ).loc main_arg5)) (m ((c : Thread nD τ).loc main_arg6)) (Cert.Bridge.kernelLayer1 (m ((c : Thread nD τ).loc main_arg0)) (m ((c : Thread nD τ).loc main_arg1)) (m ((c : Thread nD τ).loc main_arg3)) (m ((c : Thread nD τ).loc main_arg4)))) (Cert.ReferenceIdeal.Read.val_main_v103 (F := Ideal) (m ((c : Thread nD τ).loc main_arg2))) := by
  show StableHlo.after hostOps2 (W8 m ρ c) (Proc.devRef .tc main_v76) = _
  simp only [hostOps2]
  after_results_simp
  rw [at8_main_v42 m ρ c, at8_main_v3 m ρ c, at8_main_v6 m ρ c, at8_main_v21 m ρ c, at8_main_arg6 m ρ c, at8_main_arg2 m ρ c]
  rfl
theorem at9_main_v77 : W9 m ρ c (Proc.devRef .tc main_v77) = Cert.Bridge.upperHalf (m ((c : Thread nD τ).loc main_arg7)) := by
  show StableHlo.after hostOps2 (W8 m ρ c) (Proc.devRef .tc main_v77) = _
  simp only [hostOps2]
  after_results_simp
  rw [at8_main_arg7 m ρ c]
theorem at9_main_v78 : W9 m ρ c (Proc.devRef .tc main_v78) = Cert.Bridge.lowerHalf (m ((c : Thread nD τ).loc main_arg7)) := by
  show StableHlo.after hostOps2 (W8 m ρ c) (Proc.devRef .tc main_v78) = _
  simp only [hostOps2]
  after_results_simp
  rw [at8_main_arg7 m ρ c]
theorem at9_main_v79 : W9 m ρ c (Proc.devRef .tc main_v79) = Cert.Bridge.biasRow (m ((c : Thread nD τ).loc main_arg8)) := by
  show StableHlo.after hostOps2 (W8 m ρ c) (Proc.devRef .tc main_v79) = _
  simp only [hostOps2]
  after_results_simp
  rw [at8_main_arg8 m ρ c]
  rfl
theorem at9_main_v80 : W9 m ρ c (Proc.devRef .tc main_v80) = Cert.Bridge.biasOne (m ((c : Thread nD τ).loc main_arg10)) := by
  show StableHlo.after hostOps2 (W8 m ρ c) (Proc.devRef .tc main_v80) = _
  simp only [hostOps2]
  after_results_simp
  rw [at8_main_arg10 m ρ c]
  rfl
theorem at9_main_arg9 : W9 m ρ c (Proc.devRef .tc main_arg9) = (m ((c : Thread nD τ).loc main_arg9)) := by
  refine Eq.trans ?_ (at8_main_arg9 m ρ c)
  show StableHlo.after hostOps2 (W8 m ρ c) (Proc.devRef .tc main_arg9) = _
  simp only [hostOps2]
  after_results_simp <;> rfl

/-! ## The third region, and the last operation -/

/-- The two rows of every pair, gathered from the kernel's second layer. -/
abbrev pairRows0 := Host.gather gather_S100000x64_S500000x1_S500000x64_1_0_n_n_0_1_164 (Cert.Bridge.kernelLayer2 (m ((c : Thread nD τ).loc main_arg1)) (m ((c : Thread nD τ).loc main_arg5)) (m ((c : Thread nD τ).loc main_arg6)) (Cert.Bridge.kernelLayer1 (m ((c : Thread nD τ).loc main_arg0)) (m ((c : Thread nD τ).loc main_arg1)) (m ((c : Thread nD τ).loc main_arg3)) (m ((c : Thread nD τ).loc main_arg4)))) (Cert.ReferenceIdeal.Read.val_main_v94 (F := Ideal) (m ((c : Thread nD τ).loc main_arg2)))
abbrev pairRows1 := Host.gather gather_S100000x64_S500000x1_S500000x64_1_0_n_n_0_1_164 (Cert.Bridge.kernelLayer2 (m ((c : Thread nD τ).loc main_arg1)) (m ((c : Thread nD τ).loc main_arg5)) (m ((c : Thread nD τ).loc main_arg6)) (Cert.Bridge.kernelLayer1 (m ((c : Thread nD τ).loc main_arg0)) (m ((c : Thread nD τ).loc main_arg1)) (m ((c : Thread nD τ).loc main_arg3)) (m ((c : Thread nD τ).loc main_arg4)))) (Cert.ReferenceIdeal.Read.val_main_v103 (F := Ideal) (m ((c : Thread nD τ).loc main_arg2)))

theorem at10_main_v81 : W10 m ρ c (Proc.devRef .tc main_v81)
    = linkScore (pairRows0 m c) (pairRows1 m c) (Cert.Bridge.upperHalf (m ((c : Thread nD τ).loc main_arg7))) (Cert.Bridge.lowerHalf (m ((c : Thread nD τ).loc main_arg7))) (Cert.Bridge.biasRow (m ((c : Thread nD τ).loc main_arg8))) (m ((c : Thread nD τ).loc main_arg9))
        (Cert.Bridge.biasOne (m ((c : Thread nD τ).loc main_arg10))) := by
  refine (W10_arr m ρ c 7).trans ((Cert.KernelIdeal.Region2.array_eq (V9 m ρ) c).trans ?_)
  rw [show V9 m ρ c main_v67 = pairRows0 m c from at9_main_v67 m ρ c, show V9 m ρ c main_v76 = pairRows1 m c from at9_main_v76 m ρ c,
    show V9 m ρ c main_v77 = Cert.Bridge.upperHalf (m ((c : Thread nD τ).loc main_arg7)) from at9_main_v77 m ρ c,
    show V9 m ρ c main_v78 = Cert.Bridge.lowerHalf (m ((c : Thread nD τ).loc main_arg7)) from at9_main_v78 m ρ c,
    show V9 m ρ c main_v79 = Cert.Bridge.biasRow (m ((c : Thread nD τ).loc main_arg8)) from at9_main_v79 m ρ c,
    show V9 m ρ c main_arg9 = (m ((c : Thread nD τ).loc main_arg9)) from at9_main_arg9 m ρ c,
    show V9 m ρ c main_v80 = Cert.Bridge.biasOne (m ((c : Thread nD τ).loc main_arg10)) from at9_main_v80 m ρ c]

/-- THE RESULT ARRAY after the run, as a function of the arguments. -/
theorem result_eq : W11 m ρ c (Proc.devRef .tc main_v82)
    = shapeCast S500000
        (linkScore (pairRows0 m c) (pairRows1 m c) (Cert.Bridge.upperHalf (m ((c : Thread nD τ).loc main_arg7))) (Cert.Bridge.lowerHalf (m ((c : Thread nD τ).loc main_arg7))) (Cert.Bridge.biasRow (m ((c : Thread nD τ).loc main_arg8))) (m ((c : Thread nD τ).loc main_arg9))
          (Cert.Bridge.biasOne (m ((c : Thread nD τ).loc main_arg10)))) shapeCasts_S500000x1_S500000 := by
  show StableHlo.after hostOps3 (W10 m ρ c) (Proc.devRef .tc main_v82) = _
  simp only [hostOps3]
  after_results_simp
  rw [at10_main_v81 m ρ c]
  rfl

end Cert.KernelIdeal.Fold

end
-- ==== Proof.Final.lean ====
/-
  The reference's result and the kernel program's result are one function of the eleven argument arrays.

  The kernel's first layer is the reference's (the aggregation law); fed equal first layers the second layers are
  equal (the law again); the two rows gathered for every pair are then gathered from equal arrays at the same indices;
  and on equal rows the kernel's scorer, on the two halves of the weight matrix, is the reference's, on the joined
  features.  The final flattening of the [500000, 1] column is the same operation on both sides.
-/
import proofs.«148566_j28887950033462_2_alg».proof.Proof.BridgeLayers
import proofs.«148566_j28887950033462_2_alg».proof.Proof.BridgeScorer

set_option maxRecDepth 16384

noncomputable section

namespace Cert.Bridge

open Idealize.ShloMosaic Idealize.ShloMosaic.ValueIdx
open Cert.ReferenceIdeal Cert.ReferenceIdeal.Facts₀ Cert.ReferenceIdeal.Read Cert.LinkScores

variable (a0 : FVec Ideal S100000x128 .f32) (a1 : IVec S2x1600000 32) (a2 : IVec S2x500000 32) (a3 : FVec Ideal S128x64 .f32)
  (a4 : FVec Ideal S64 .f32) (a5 : FVec Ideal S64x64 .f32) (a6 : FVec Ideal S64 .f32) (a7 : FVec Ideal S128x64 .f32)
  (a8 : FVec Ideal S64 .f32) (a9 : FVec Ideal S64x1 .f32) (a10 : FVec Ideal S1 .f32)

/-- The kernel program's scores, before the final flattening, as a function of the arguments. -/
def kernelScores : FVec Ideal S500000x1 .f32 :=
  linkScore
    (Host.gather gather_S100000x64_S500000x1_S500000x64_1_0_n_n_0_1_164 (kernelLayer2 a1 a5 a6 (kernelLayer1 a0 a1 a3 a4))
      (val_main_v94 (F := Ideal) a2))
    (Host.gather gather_S100000x64_S500000x1_S500000x64_1_0_n_n_0_1_164 (kernelLayer2 a1 a5 a6 (kernelLayer1 a0 a1 a3 a4))
      (val_main_v103 (F := Ideal) a2))
    (upperHalf a7) (lowerHalf a7) (biasRow a8) a9 (biasOne a10)

/-- THE SCORES: the kernel program's are the reference's. -/
theorem scores_eq : kernelScores a0 a1 a2 a3 a4 a5 a6 a7 a8 a9 a10 = val_main_v120 (F := Ideal) a0 a1 a2 a3 a4 a5 a6 a7 a8 a9 a10 := by
  unfold kernelScores
  rw [layer1_eq a0 a1 a3 a4, layer2_eq a0 a1 a3 a4 a5 a6, scorer_eq]
  rfl

end Cert.Bridge

end
-- ==== Proof.lean ====
/-
  The certificate of the link-scoring graph network: a two-layer graph convolution over 100000 nodes and 1700000 edges
  (the given edges and one self loop per node) followed by a two-layer scorer on 500000 node pairs.

  * The three frames.  The two kernel programs (as compiled, and idealized) run, fault nowhere and leave their eleven
    argument arrays as launched; the reference, a host program, does too: its run with the result dropped.
  * The idealization rewrote no operation, so it preserves the program trivially.
  * On the extended reals the idealized kernel program and the idealized reference compute the same 500000 scores from
    arguments that agree.  The kernel's run ends with its result array at the last boundary of its fold, which is the
    flattened scorer on the rows gathered from its second layer (Proof/Fold.lean); the reference's run ends at its staged
    term; and the two are one function of the arguments (Proof/Final.lean): per layer the node weights, nonnegative reals
    whatever the edge list holds, are moved out of the sum over a node's incoming edges, and the scorer's contraction over
    the 128 joined features is split into its two halves.  The precondition is never opened: no step needs an input to be
    finite.
-/
import proofs.«148566_j28887950033462_2_alg».proof.Defs
import proofs.«148566_j28887950033462_2_alg».proof.Proof.Gen.Kernel
import proofs.«148566_j28887950033462_2_alg».proof.Proof.Gen.Kernel.Skeleton
import proofs.«148566_j28887950033462_2_alg».proof.Proof.Gen.Kernel.Launch
import proofs.«148566_j28887950033462_2_alg».proof.Proof.Gen.Kernel.Points
import proofs.«148566_j28887950033462_2_alg».proof.Proof.Gen.Kernel.Frame
import proofs.«148566_j28887950033462_2_alg».proof.Proof.Gen.KernelIdeal
import proofs.«148566_j28887950033462_2_alg».proof.Proof.Gen.KernelIdeal.Skeleton
import proofs.«148566_j28887950033462_2_alg».proof.Proof.Gen.KernelIdeal.Launch
import proofs.«148566_j28887950033462_2_alg».proof.Proof.Gen.KernelIdeal.Points
import proofs.«148566_j28887950033462_2_alg».proof.Proof.Gen.KernelIdeal.Frame
import proofs.«148566_j28887950033462_2_alg».proof.Proof.Gen.ReferenceIdeal
import proofs.«148566_j28887950033462_2_alg».proof.Proof.Gen.Pre_finite_inputs
import proofs.«148566_j28887950033462_2_alg».proof.Proof.KernelRun
import proofs.«148566_j28887950033462_2_alg».proof.Proof.Fold
import proofs.«148566_j28887950033462_2_alg».proof.Proof.RefReadPatched
import proofs.«148566_j28887950033462_2_alg».proof.Proof.Final
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two idealized programs end with equal scores: the kernel program's result array is the flattened scorer on its
    second layer's gathered rows, the reference's is its staged term, and the two are one function of the arguments. -/
theorem algebraic : Cert.algebraic_KernelIdeal_ReferenceIdeal := by
  intro m ρ m' ρ' _ hagree
  refine ⟨fun c => Cert.KernelIdeal.Gen.W11 m ρ c (Proc.devRef .tc Cert.KernelIdeal.main_v82), Cert.KernelIdeal.Out.run_out m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v121_eq, e0, e1, e2, e3, e4, e5, e6, e7, e8, e9, e10]
  refine Eq.trans ?_ (Cert.KernelIdeal.Fold.result_eq m ρ c).symm
  unfold Cert.ReferenceIdeal.Read.val_main_v121
  exact congrArg (fun t => shapeCast _ t _) (Cert.Bridge.scores_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
